-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S700000x128 : Shape := ⟨2, ![700000, 128]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 49
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x128, .bf16⟩
  | .hbm, ⟨31, _⟩ => ⟨S_, .i32⟩
  | .hbm, ⟨32, _⟩ => ⟨S700000, .i32⟩
  | .hbm, ⟨33, _⟩ => ⟨S700000, .i1⟩
  | .hbm, ⟨34, _⟩ => ⟨S_, .i32⟩
  | .hbm, ⟨35, _⟩ => ⟨S700000, .i32⟩
  | .hbm, ⟨36, _⟩ => ⟨S700000, .i32⟩
  | .hbm, ⟨37, _⟩ => ⟨S700000, .i32⟩
  | .hbm, ⟨38, _⟩ => ⟨S700000x1, .i32⟩
  | .hbm, ⟨39, _⟩ => ⟨S700000x128, .bf16⟩
  | .hbm, ⟨40, _⟩ => ⟨S700000x128, .f32⟩
  | .hbm, ⟨41, _⟩ => ⟨S_, .f32⟩
  | .hbm, ⟨42, _⟩ => ⟨S100000x128, .f32⟩
  | .hbm, ⟨43, _⟩ => ⟨S700000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000_S700000x1_S700000_n_0_0_1_wf : ScatterDims.WF S100000 S700000x1 S700000 [] [0] [0] 1
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S100000x1 : Shape := ⟨2, ![100000, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x128, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x128, .f32⟩
  | .hbm, ⟨56, _⟩ => ⟨S700000x1, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000, .f32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x1, .f32⟩
  | .hbm, ⟨89, _⟩ => ⟨S100000x1, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.Spec.lean ====
/-
  One graph-convolution layer with symmetric normalisation, followed by ReLU, a residual connection and a row-wise layer
  normalisation, written index by index over the extended reals.

  There are 100000 nodes with 128 features each and 700000 directed edges (the given ones and one self loop per node).
  Edge `e` carries the feature row of its source node `s e` to the node whose number, read as a signed integer off the
  destination list, it names; an edge whose destination number is not a node lands nowhere.  Every node `v` has a weight
  `dinv v` (the inverse square root of its in-degree), and an edge from `u` to `v` is weighted `dinv u * dinv v`.

  The layer can be computed in two arrangements.  In the first the rows are weighted by the source's factor, summed over
  the edges that land at `v`, weighted by `dinv v`, and only then multiplied by the 128 x 128 matrix `W` (`preK`).  In
  the second every row is multiplied by `W` first and each edge's row is weighted by `dinv (s e) * dinv (d' e)`, where
  `d' e` is the destination's row number as a lookup finds it, before the sum over the edges that land at `v` (`preR`).
  For finite features, weights and matrix entries the two agree (the matrix product distributes over the finite sum, and
  `d' e = v` for every edge that lands at `v`); over the extended reals this needs the entries to be real numbers.

  What follows the aggregation is the same in both: add the bias, take the positive part, add the node's own features
  (`actRow`), and normalise each row of 128 numbers to mean zero and unit variance with the two constants printed in the
  programs (`lnRow`), then scale and shift by `g` and `β`.
-/
import Idealize.ShloMosaic.Lib.ValueIdx
import Idealize.ShloMosaic.PureOps.Ideal.Laws

noncomputable section

namespace Cert.Gcn

open Idealize.ShloMosaic Idealize.ShloMosaic.ValueIdx

/-- Node features, `[100000, 128]`. -/
abbrev SNH : Shape := ⟨2, ![100000, 128]⟩
/-- The weight matrix, `[128, 128]`. -/
abbrev SHH : Shape := ⟨2, ![128, 128]⟩
/-- A feature vector, `[128]`. -/
abbrev SH : Shape := ⟨1, ![128]⟩
/-- One number per node, `[100000]`. -/
abbrev SN : Shape := ⟨1, ![100000]⟩
/-- One row number per edge, `[700000, 1]`. -/
abbrev SE1 : Shape := ⟨2, ![700000, 1]⟩

/-! ## The row normalisation -/

/-- The float word of `128.0`, the length of a row. -/
def c128 : EReal := Ideal.ofBits .f32 0x43000000#32
/-- The float word the variance is shifted by before the inverse square root. -/
def ceps : EReal := Ideal.ofBits .f32 0x322BCC77#32

/-- The mean of a row of 128 numbers. -/
def rowMean (y : Fin 128 → EReal) : EReal := Ideal.div (∑ j : Fin 128, y j) c128

/-- The mean squared deviation of a row from its mean. -/
def rowVar (y : Fin 128 → EReal) : EReal :=
  Ideal.div (∑ j : Fin 128, (y j - rowMean y) * (y j - rowMean y)) c128

/-- Entry `q` of the normalised row: the deviation from the mean times the inverse square root of the shifted variance,
    scaled by `g q` and shifted by `β q`. -/
def lnRow (y g β : Fin 128 → EReal) (q : Fin 128) : EReal :=
  (y q - rowMean y) * Ideal.rsqrt (rowVar y + ceps) * g q + β q

/-- The row that is normalised: the positive part of the aggregated row `P` plus the bias, plus the node's own row. -/
def actRow (P b x : Fin 128 → EReal) (j : Fin 128) : EReal := max (P j + b j) 0 + x j

/-- The layer's output as one array, from the aggregated rows `P`. -/
def layerOut (P : Fin 100000 → Fin 128 → EReal) (x : SNH.Idx → EReal) (b g β : SH.Idx → EReal) : SNH.Idx → EReal :=
  fun i => lnRow (actRow (P (i 0)) (fun j => b (ix1 j)) (fun j => x (ix2 (i 0) j))) (fun j => g (ix1 j)) (fun j => β (ix1 j)) (i 1)

theorem layerOut_ix2 (P : Fin 100000 → Fin 128 → EReal) (x : SNH.Idx → EReal) (b g β : SH.Idx → EReal)
    (r : Fin 100000) (q : Fin 128) :
    layerOut P x b g β (ix2 r q)
      = lnRow (actRow (P r) (fun j => b (ix1 j)) (fun j => x (ix2 r j))) (fun j => g (ix1 j)) (fun j => β (ix1 j)) q := rfl

/-- Two aggregations that agree entry by entry give the same output. -/
theorem layerOut_congr {P P' : Fin 100000 → Fin 128 → EReal} (h : ∀ r j, P r j = P' r j)
    (x : SNH.Idx → EReal) (b g β : SH.Idx → EReal) : layerOut P x b g β = layerOut P' x b g β := by
  have : P = P' := funext fun r => funext fun j => h r j
  rw [this]

/-! ## The two arrangements of the aggregation -/

/-- Aggregate first: entry `(r, k)` of the sum over the edges landing at `r` of the source rows weighted by the source's
    factor, weighted by the factor of `r`. -/
def aggAt (x : SNH.Idx → EReal) (dinv : SN.Idx → EReal) (s : Fin 700000 → Fin 100000) (didx : IVec SE1 32)
    (r : Fin 100000) (k : Fin 128) : EReal :=
  (∑ e : Fin 700000, if (didx (ix2 e 0)).toInt = (r.val : ℤ) then x (ix2 (s e) k) * dinv (ix1 (s e)) else 0) * dinv (ix1 r)

/-- ... then multiply by the matrix. -/
def preK (x : SNH.Idx → EReal) (W : SHH.Idx → EReal) (dinv : SN.Idx → EReal) (s : Fin 700000 → Fin 100000)
    (didx : IVec SE1 32) (r : Fin 100000) (j : Fin 128) : EReal :=
  ∑ k : Fin 128, aggAt x dinv s didx r k * W (ix2 k j)

/-- Multiply every row by the matrix first, weight each edge's row by both factors, then sum over the edges landing at `r`. -/
def preR (x : SNH.Idx → EReal) (W : SHH.Idx → EReal) (dinv : SN.Idx → EReal) (s d' : Fin 700000 → Fin 100000)
    (didx : IVec SE1 32) (r : Fin 100000) (j : Fin 128) : EReal :=
  ∑ e : Fin 700000, if (didx (ix2 e 0)).toInt = (r.val : ℤ)
    then (∑ k : Fin 128, x (ix2 (s e) k) * W (ix2 k j)) * (dinv (ix1 (s e)) * dinv (ix1 (d' e))) else 0

end Cert.Gcn

end
-- ==== Proof.Interchange.lean ====
/-
  The law that joins the two arrangements of the aggregation.

  Over the real numbers, for finite index sets of edges `e` and features `k`: weighting each landing edge's row by the
  source's factor, summing, weighting by the destination's factor `dv` and then contracting with a column of the matrix is
  the same as contracting every edge's row with that column first and weighting it by both factors before the sum,
  because the contraction is linear (multiplication distributes over the finite sums, and the two sums commute) and
  because the destination factor `dd e` that an edge carries is `dv` for every edge that lands.

  Over the extended reals multiplication does not distribute over sums at the infinities, so the law is transported from
  the reals: when every feature, matrix entry and factor is (the coercion of) a real number, both sides are coercions of
  the two real expressions, the coercion commuting with finite sums, products and the case distinction.
-/
import proofs.«122670_j75290776699105_2_alg».proof.Proof.Spec

noncomputable section

namespace Cert.Gcn

open Idealize.ShloMosaic Idealize.ShloMosaic.ValueIdx

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Aggregate-then-contract equals contract-then-aggregate, over the reals. `L e` says that edge `e` lands at the row in
    question, `xs e k` is entry `k` of its source row, `ds e` the source's factor, `dd e` the destination factor it carries,
    `dv` the row's own factor and `Wc` the matrix column. -/
theorem interchange_real {E K : Type} [Fintype E] [Fintype K] (L : E → Prop) [DecidablePred L]
    (xs : E → K → ℝ) (Wc : K → ℝ) (ds dd : E → ℝ) (dv : ℝ) (hdd : ∀ e, L e → dd e = dv) :
    ∑ k, ((∑ e, if L e then xs e k * ds e else 0) * dv) * Wc k
      = ∑ e, if L e then (∑ k, xs e k * Wc k) * (ds e * dd e) else 0 := by
  calc ∑ k, ((∑ e, if L e then xs e k * ds e else 0) * dv) * Wc k
      = ∑ k, ∑ e, if L e then xs e k * Wc k * (ds e * dv) else 0 := by
        refine Finset.sum_congr rfl fun k _ => ?_
        rw [Finset.sum_mul, Finset.sum_mul]
        refine Finset.sum_congr rfl fun e _ => ?_
        split_ifs <;> ring
    _ = ∑ e, ∑ k, if L e then xs e k * Wc k * (ds e * dv) else 0 := Finset.sum_comm
    _ = ∑ e, if L e then (∑ k, xs e k * Wc k) * (ds e * dd e) else 0 := by
        refine Finset.sum_congr rfl fun e _ => ?_
        by_cases h : L e
        · simp only [h, if_true]
          rw [hdd e h, Finset.sum_mul]
        · simp only [h, if_false]
          exact Finset.sum_const_zero

/-- THE TWO ARRANGEMENTS AGREE for real features, matrix entries and factors, when every edge that lands at a row carries
    that row's factor as its destination factor. -/
theorem preK_eq_preR (x : SNH.Idx → EReal) (W : SHH.Idx → EReal) (dinv : SN.Idx → EReal) (s d' : Fin 700000 → Fin 100000)
    (didx : IVec SE1 32)
    (hx : ∀ i, ∃ a : ℝ, x i = ((a : ℝ) : EReal)) (hW : ∀ i, ∃ a : ℝ, W i = ((a : ℝ) : EReal))
    (hd : ∀ i, ∃ a : ℝ, dinv i = ((a : ℝ) : EReal))
    (hland : ∀ (e : Fin 700000) (r : Fin 100000), (didx (ix2 e 0)).toInt = (r.val : ℤ) → d' e = r)
    (r : Fin 100000) (j : Fin 128) :
    preK x W dinv s didx r j = preR x W dinv s d' didx r j := by
  choose xr hxr using hx
  choose Wr hWr using hW
  choose dr hdr using hd
  have key := interchange_real (fun e : Fin 700000 => (didx (ix2 e 0)).toInt = (r.val : ℤ))
    (fun e (k : Fin 128) => xr (ix2 (s e) k)) (fun k => Wr (ix2 k j)) (fun e => dr (ix1 (s e))) (fun e => dr (ix1 (d' e)))
    (dr (ix1 r)) (fun e h => by rw [hland e r h])
  have key' := congrArg (fun t : ℝ => (t : EReal)) key
  simp only [coe_sum, EReal.coe_mul, apply_ite (fun t : ℝ => (t : EReal)), EReal.coe_zero] at key'
  unfold preK aggAt preR
  simp only [hxr, hWr, hdr]
  exact key'

end Cert.Gcn

end
-- ==== Proof.LibFiniteInputs.lean ====
/-
  Finite inputs.  A precondition of the form "every entry's absolute value is below +∞", taken over a whole array by an
  all-reduction, makes every entry of the array a real number: an all-reduction that is 1 has every compared entry 1;
  the word `0x7F800000` denotes `⊤`; and an extended real with `max x (-x) < ⊤` is neither infinity.
  Generic in the array's shape and in the axes reduced; the scalar shape is spelt literally so that any program's own
  abbreviation of it unifies.
-/
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx

/-- The scalar shape. -/
abbrev S0 : Shape := ⟨0, ![]⟩

instance : Subsingleton S0.Idx := ⟨fun a b => funext fun d => d.elim0⟩

/-- The word of +∞ denotes `⊤`. -/
theorem inf_f32 : Ideal.ofBits .f32 0x7F800000#32 = ⊤ := by simp [Ideal.ofBits, Ideal.ieee]

/-- An extended real whose absolute value compares below +∞ is a real. -/
theorem real_of_lt (x : EReal) (h : Ideal.cmp .olt (max x (-x)) (Ideal.ofBits .f32 0x7F800000#32) = 1#1) :
    ∃ r : ℝ, x = ((r : ℝ) : EReal) := by
  rw [inf_f32] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | coe r => exact ⟨r, rfl⟩
  | top => exact absurd hlt (by simp)

/-- One array: the all-reduction of `|a| < +∞` is 1, so every entry of `a` is a real. -/
theorem all_real {s : Shape} {axes : List (Fin s.rank)} (a : FVec Ideal s .f32) (hb : S0.BroadcastsInDim s (![] : Fin 0 → Fin s.rank))
    (hr : s.ReducesTo axes S0) (hn : 0 < S0.numel)
    (e : Host.reduce IntOp.andi (cmpf .olt (Host.absf a) (broadcastInDim s ![] hb (constant (F := Ideal) S0 .f32 0x7F800000#32)))
      (constantI S0 1 1#1) hr hn ix0 = 1#1) (i : s.Idx) : ∃ r : ℝ, a i = ((r : ℝ) : EReal) :=
  real_of_lt (a i) (Host.reduce_andi_all _ _ hr hn ix0 e i)

end Cert.FiniteInputs

end
-- ==== Proof.Finite.lean ====
/-
  Finite inputs.  The precondition says of each float input that every entry's absolute value is below +∞, the five
  statements joined by "and" into one truth value.  Taken apart, the first two say that every node feature and every
  matrix entry is a real number, which is what the law joining the two arrangements of the aggregation needs.
-/
import proofs.«122670_j75290776699105_2_alg».proof.Pre_finite_inputs
import proofs.«122670_j75290776699105_2_alg».proof.Proof.LibFiniteInputs
import Idealize.ShloMosaic.Lib.Affine

noncomputable section

namespace Cert.Gcn

open Idealize.ShloMosaic Idealize.ShloMosaic.ValueIdx

/-- Under the precondition every node feature and every matrix entry is a real number. -/
theorem features_matrix_real [Cert.Pre_finite_inputs.Facts]
    (x0 : FVec Ideal Cert.Pre_finite_inputs.S100000x128 .f32) (x1 : IVec Cert.Pre_finite_inputs.S2x600000 32)
    (x2 : FVec Ideal Cert.Pre_finite_inputs.S128x128 .f32) (x3 x4 x5 : FVec Ideal Cert.Pre_finite_inputs.S128 .f32)
    (h : Cert.Pre_finite_inputs.fn (F := Ideal) x0 x1 x2 x3 x4 x5 = fun _ => 1#1) :
    (∀ i, ∃ a : ℝ, x0 i = ((a : ℝ) : EReal)) ∧ (∀ i, ∃ a : ℝ, x2 i = ((a : ℝ) : EReal)) := by
  have h0 := congrFun h ix0
  dsimp only [Cert.Pre_finite_inputs.fn, Cert.Pre_finite_inputs.fn_part1, andi] at h0
  obtain ⟨h1234, _⟩ := IntOp.andi_eq_one.1 h0
  obtain ⟨h123, _⟩ := IntOp.andi_eq_one.1 h1234
  obtain ⟨h12, _⟩ := IntOp.andi_eq_one.1 h123
  obtain ⟨hx, hW⟩ := IntOp.andi_eq_one.1 h12
  exact ⟨fun i => Cert.FiniteInputs.all_real x0 _ _ _ hx i, fun i => Cert.FiniteInputs.all_real x2 _ _ _ hW i⟩

end Cert.Gcn

end
-- ==== Proof.LibRowGatherScatter.lean ====
/-
  Rows picked and rows accumulated by an integer list.

  A two-dimensional array `x : [N, C]` indexed by a list of row numbers `idx : [E, 1]` (what `x[idx]` of a matrix at a
  vector of integers lowers to) gives the array `[E, C]` whose row `e` is row `idx e` of `x`, the row number read as a
  signed integer and clamped into `[0, N - 1]`.

  Dually, accumulating the rows of `upd : [E, C]` into `x : [N, C]` at the row numbers `idx : [E, 1]` (a segment sum) gives,
  over the extended reals, at `(r, q)` the entry `x (r, q)` plus the sum over all `e` whose row number, read as a signed
  integer, IS `r` of `upd (e, q)`; a row number outside `[0, N)` lands nowhere.  The sum is written over ALL `e` with the
  summand `0` where the row number is another, so that two such sums over the same list can be compared term by term.

  Both are generic in the extents `N`, `E`, `C`; the dimension numbers are spelt as literals so that a program's own record
  of them unifies (its side condition `wf` is a parameter).
-/
import Idealize.ShloMosaic.Lib.ValueIdx
import Idealize.ShloMosaic.PureOps.Ideal.Laws

noncomputable section

namespace Cert.RowGatherScatter

open Idealize.ShloMosaic Idealize.ShloMosaic.ValueIdx

/-! ## Picking rows -/

section Gather
variable {α : Type}

/-- The dimension numbers of `x[idx]` for a matrix `x : [N, C]` and row numbers `idx : [E, 1]`: the result's axis 1 is the
    offset axis, the operand's axis 0 is collapsed and is the one the start index names. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row of `x` that entry `e` of the list names: its word read signed, clamped into `[0, N - 1]`. -/
def srcRow {N E w : Nat} (hN : 0 < N) (idx : IVec ⟨2, ![E, 1]⟩ w) (e : Fin E) : Fin N :=
  ⟨min (idx (ix2 e 0)).toInt.toNat (N - 1), by omega⟩

/-- THE ROW GATHER READ AT `(e, q)`: entry `q` of the row of `x` that entry `e` of the list names. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (srcRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hst : (rowGatherDims N E C wf).start (ix2 e q) idx 1 = 0 := by
      unfold GatherDims.start
      rw [dif_neg (show ¬ (1 : Fin 2) ∈ (rowGatherDims N E C wf).startIndexMap from
        (show ¬ (1 : Fin 2) ∈ ([0] : List (Fin 2)) from by decide))]
    have hoff : (rowGatherDims N E C wf).offCoord (ix2 e q) 1 = q.val := by
      unfold GatherDims.offCoord
      rw [dif_pos (show (1 : Fin 2) ∈ (rowGatherDims N E C wf).sKept from
        ((rowGatherDims N E C wf).mem_sKept 1).2 ⟨(show ¬ (1 : Fin 2) ∈ ([0] : List (Fin 2)) from by decide), List.not_mem_nil⟩)]
      rfl
    rw [hst, hoff]
    omega

end Gather

/-! ## Accumulating rows -/

section Scatter

/-- The dimension numbers of a row accumulation into `[N, C]` of updates `[E, C]` at row numbers `[E, 1]`: the updates'
    axis 1 is the window axis, the operand's axis 0 is inserted and is the one the scatter index names. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w)

/-- On the row axis the window starts at the row number, read signed, and has no extent. -/
theorem start_window_row (e : Fin E) (c : Fin C) :
    (rowScatterDims N E C wf).start (ix2 e c) idx 0 + ((rowScatterDims N E C wf).window (ix2 e c) 0 : ℤ)
      = (idx (ix2 e 0)).toInt := by
  have hw : (rowScatterDims N E C wf).window (ix2 e c) 0 = 0 := by
    unfold ScatterDims.window
    rw [dif_neg (show ¬ (0 : Fin 2) ∈ (rowScatterDims N E C wf).sKept from
      (show ¬ (0 : Fin 2) ∈ (List.finRange 2).filter (· ∉ ([0] : List (Fin 2))) from by decide))]
  have hs : (rowScatterDims N E C wf).start (ix2 e c) idx 0 = (idx (ix2 e 0)).toInt := by
    unfold ScatterDims.start
    rw [dif_pos (show (0 : Fin 2) ∈ (rowScatterDims N E C wf).scatterDimsToOperandDims from List.mem_singleton.mpr rfl)]
    have hsi : (rowScatterDims N E C wf).siIdx (ix2 e c) ⟨List.idxOf (0 : Fin 2) (rowScatterDims N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  rw [hw, hs]; simp

/-- On the column axis the window starts at `0` and the update's column is the window coordinate. -/
theorem start_window_col (e : Fin E) (c : Fin C) :
    (rowScatterDims N E C wf).start (ix2 e c) idx 1 + ((rowScatterDims N E C wf).window (ix2 e c) 1 : ℤ) = (c.val : ℤ) := by
  have hw : (rowScatterDims N E C wf).window (ix2 e c) 1 = c.val := by
    unfold ScatterDims.window
    rw [dif_pos (show (1 : Fin 2) ∈ (rowScatterDims N E C wf).sKept from
      (show (1 : Fin 2) ∈ (List.finRange 2).filter (· ∉ ([0] : List (Fin 2))) from by decide))]
    rfl
  have hs : (rowScatterDims N E C wf).start (ix2 e c) idx 1 = 0 := by
    unfold ScatterDims.start
    rw [dif_neg (show ¬ (1 : Fin 2) ∈ (rowScatterDims N E C wf).scatterDimsToOperandDims from
      (show ¬ (1 : Fin 2) ∈ ([0] : List (Fin 2)) from by decide))]
  rw [hw, hs]; simp

/-- WHERE AN UPDATE LANDS: update `(e, c)` lands at `(r, q)` exactly when entry `e` of the list, read signed, is `r` and
    the columns agree. -/
theorem resultIdx?_eq_some_iff (e : Fin E) (c : Fin C) (r : Fin N) (q : Fin C) :
    (rowScatterDims N E C wf).resultIdx? (ix2 e c) idx = some (ix2 r q) ↔ (idx (ix2 e 0)).toInt = (r.val : ℤ) ∧ c = q := by
  have h0 := start_window_row wf idx e c
  have h1 := start_window_col wf idx e c
  unfold ScatterDims.resultIdx?
  split
  · rename_i h
    rw [Option.some.injEq]
    constructor
    · intro hf
      have e0 : ((rowScatterDims N E C wf).start (ix2 e c) idx 0 + ((rowScatterDims N E C wf).window (ix2 e c) 0 : ℤ)).toNat = r.val :=
        congrArg (fun f : (⟨2, ![N, C]⟩ : Shape).Idx => (f 0).val) hf
      have e1 : ((rowScatterDims N E C wf).start (ix2 e c) idx 1 + ((rowScatterDims N E C wf).window (ix2 e c) 1 : ℤ)).toNat = q.val :=
        congrArg (fun f : (⟨2, ![N, C]⟩ : Shape).Idx => (f 1).val) hf
      have b0 := (h 0).1
      rw [h0] at e0 b0
      rw [h1] at e1
      exact ⟨by omega, Fin.ext (by omega)⟩
    · rintro ⟨hr, rfl⟩
      funext a; refine Fin.ext ?_
      match a with
      | ⟨0, _⟩ =>
        show ((rowScatterDims N E C wf).start (ix2 e c) idx 0 + ((rowScatterDims N E C wf).window (ix2 e c) 0 : ℤ)).toNat = r.val
        rw [h0, hr]; simp
      | ⟨1, _⟩ =>
        show ((rowScatterDims N E C wf).start (ix2 e c) idx 1 + ((rowScatterDims N E C wf).window (ix2 e c) 1 : ℤ)).toNat = c.val
        rw [h1]; simp
  · rename_i h
    constructor
    · intro hf; cases hf
    · rintro ⟨hr, rfl⟩
      exfalso; apply h
      intro a
      match a with
      | ⟨0, _⟩ =>
        show 0 ≤ (rowScatterDims N E C wf).start (ix2 e c) idx 0 + ((rowScatterDims N E C wf).window (ix2 e c) 0 : ℤ)
          ∧ (rowScatterDims N E C wf).start (ix2 e c) idx 0 + ((rowScatterDims N E C wf).window (ix2 e c) 0 : ℤ) < (N : ℤ)
        rw [h0, hr]; have := r.isLt; omega
      | ⟨1, _⟩ =>
        show 0 ≤ (rowScatterDims N E C wf).start (ix2 e c) idx 1 + ((rowScatterDims N E C wf).window (ix2 e c) 1 : ℤ)
          ∧ (rowScatterDims N E C wf).start (ix2 e c) idx 1 + ((rowScatterDims N E C wf).window (ix2 e c) 1 : ℤ) < (C : ℤ)
        rw [h1]; have := c.isLt; omega

/-- THE ROW ACCUMULATION READ AT `(r, q)`, over the extended reals: the operand's entry plus the sum over every `e` of
    `upd (e, q)` where entry `e` of the list is `r`, of `0` elsewhere. -/
theorem scatterAdd_rows_apply (x : (⟨2, ![N, C]⟩ : Shape).Idx → EReal) (upd : (⟨2, ![E, C]⟩ : Shape).Idx → EReal)
    (r : Fin N) (q : Fin C) :
    Ideal.hostScatterAdd (rowScatterDims N E C wf) x idx upd (ix2 r q)
      = x (ix2 r q) + ∑ e : Fin E, if (idx (ix2 e 0)).toInt = (r.val : ℤ) then upd (ix2 e q) else 0 := by
  unfold Ideal.hostScatterAdd
  congr 1
  rw [Finset.sum_filter, sum_idx2]
  refine Finset.sum_congr rfl fun e _ => ?_
  simp only [resultIdx?_eq_some_iff wf idx e _ r q]
  by_cases hr : (idx (ix2 e 0)).toInt = (r.val : ℤ)
  · simp only [hr, true_and, if_true]
    rw [Finset.sum_ite_eq' Finset.univ q (fun c => upd (ix2 e c))]
    simp
  · simp only [hr, false_and, if_false]
    exact Finset.sum_const_zero

/-- The same for the host operation as a program prints it, `Host.scatterAdd` read at the extended reals (there it IS the
    exact sum above, whatever order the colliding updates are added in). -/
theorem host_scatterAdd_rows_apply {φ : FTy} (x : FVec Ideal ⟨2, ![N, C]⟩ φ) (upd : FVec Ideal ⟨2, ![E, C]⟩ φ)
    (r : Fin N) (q : Fin C) :
    Host.scatterAdd (F := Ideal) (rowScatterDims N E C wf) x idx upd (ix2 r q)
      = x (ix2 r q) + ∑ e : Fin E, if (idx (ix2 e 0)).toInt = (r.val : ℤ) then upd (ix2 e q) else 0 :=
  scatterAdd_rows_apply wf idx x upd r q

end Scatter

end Cert.RowGatherScatter

end
-- ==== Proof.KernelHost.lean ====
/-
  What the kernel's program hands to its region as the aggregated array.

  Before the region the program computes, on the host, one weight per node `dinv` (the inverse square root of the node's
  in-degree where that is positive, `0` elsewhere), scales every feature row by its node's weight, lets every edge fetch
  the scaled row of its source node (the source number wrapped if negative and clamped into the node range), accumulates
  the fetched rows into a zero array at the edges' destination numbers (an edge whose destination is not a node lands
  nowhere) and scales row `r` of the result by `dinv r`.  Read at entry `(r, k)` this is the specification's `aggAt`.
  Format changes along the way are the identity on extended reals.

  The edge lists and the weights are the same terms of the edge-index argument as in the reference program, and are
  written with the reference's names for them, so that the two programs' sums run over literally the same lists.  That
  the region finds this array holds for any float arithmetic (it only follows the program's operations in order); what
  the array is entry by entry is then read over the extended reals.
-/
import proofs.«122670_j75290776699105_2_alg».proof.Proof.Gen.KernelIdeal.Frame
import proofs.«122670_j75290776699105_2_alg».proof.Proof.RefRead
import proofs.«122670_j75290776699105_2_alg».proof.Proof.Spec
import proofs.«122670_j75290776699105_2_alg».proof.Proof.LibRowGatherScatter
import Idealize.ShloMosaic.Lib.StableHlo.Run
import Idealize.ShloMosaic.Lib.Pipeline.Value
import Idealize.ShloMosaic.Lib.ValueIdx
import Idealize.ShloMosaic.PureOps.Ideal.Laws

noncomputable section

namespace Cert.Gcn.KernelHost

open Cert.KernelIdeal Cert.KernelIdeal.Gen
open Idealize.ShloMosaic Idealize.ShloMosaic.TcCoe Idealize.SL.Sem Idealize.ShloMosaic.StableHlo Idealize.ShloMosaic.ValueIdx
open Cert.RowGatherScatter

section AnyFloats

variable {F : FTy → Type} [FloatOps F]

/-- The nodes' weights, one per node. -/
abbrev dinv (x1 : (⟨S2x600000, .i32⟩ : BufTy).Contents (Elt F)) : FVec F S100000 .f32 := Cert.ReferenceIdeal.ReadP.val_main_v14 (F := F) x1
/-- The edges' source numbers, wrapped, as a column. -/
abbrev srcIdx (x1 : (⟨S2x600000, .i32⟩ : BufTy).Contents (Elt F)) : IVec S700000x1 32 := Cert.ReferenceIdeal.ReadP.val_main_v36 (F := F) x1
/-- The edges' destination numbers as a column. -/
abbrev dstIdx (x1 : (⟨S2x600000, .i32⟩ : BufTy).Contents (Elt F)) : IVec S700000x1 32 := Cert.ReferenceIdeal.ReadP.val_main_v42 (F := F) x1

/-- The weights laid out along the rows of a `[100000, 128]` array. -/
def dinvRows (x1 : (⟨S2x600000, .i32⟩ : BufTy).Contents (Elt F)) : FVec F S100000x128 .f32 :=
  broadcastInDim S100000x128 ![0, 1] bcast_S100000x1_S100000x128_0_1 (broadcastInDim S100000x1 ![0] bcast_S100000_S100000x1_0 (dinv x1))

/-- The feature rows scaled by their nodes' weights. -/
def scaledRows (x0 : FVec F S100000x128 .f32) (x1 : (⟨S2x600000, .i32⟩ : BufTy).Contents (Elt F)) : FVec F S100000x128 .bf16 :=
  truncf .bf16 (mulf x0 (dinvRows x1)) bitsLt_bf16_f32

/-- One fetched row per edge. -/
def edgeRows (x0 : FVec F S100000x128 .f32) (x1 : (⟨S2x600000, .i32⟩ : BufTy).Contents (Elt F)) : FVec F S700000x128 .f32 :=
  extf .f32 (Host.gather gather_S100000x128_S700000x1_S700000x128_1_0_n_n_0_1_1128 (scaledRows x0 x1) (srcIdx x1)) bitsLt_bf16_f32

/-- The fetched rows accumulated at the destinations. -/
def aggRaw (x0 : FVec F S100000x128 .f32) (x1 : (⟨S2x600000, .i32⟩ : BufTy).Contents (Elt F)) : FVec F S100000x128 .f32 :=
  Host.scatterAdd scatter_S100000x128_S700000x1_S700000x128_1_0_0_1
    (broadcastInDim S100000x128 ![] bcast_S_S100000x128 (constant S_ .f32 0x00000000#32)) (dstIdx x1) (edgeRows x0 x1)

/-- The aggregated array the region is given. -/
def aggArr (x0 : FVec F S100000x128 .f32) (x1 : (⟨S2x600000, .i32⟩ : BufTy).Contents (Elt F)) : FVec F S100000x128 .f32 :=
  mulf (aggRaw x0 x1) (dinvRows x1)

set_option maxRecDepth 65536 in
/-- After the host operations before the region, the buffer the region's first window stages holds the aggregated array
    of the feature and edge-index arguments, whatever the float arithmetic. -/
theorem V_agg (m : (ℓ : Loc nD τ sig) → Buf (Elt F) ℓ) (c : Dev nD) :
    (V m c main_v32 : FVec F S100000x128 .f32)
      = aggArr (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp
  unfold aggArr aggRaw edgeRows scaledRows dinvRows
  simp only [dinv, srcIdx, dstIdx, Cert.ReferenceIdeal.ReadP.val_main_v42, Cert.ReferenceIdeal.ReadP.val_main_v6, Cert.ReferenceIdeal.ReadP.val_main_v5, Cert.ReferenceIdeal.ReadP.val_main_v4, Cert.ReferenceIdeal.ReadP.val_main_v0, Cert.ReferenceIdeal.ReadP.val_main_v14, Cert.ReferenceIdeal.ReadP.val_main_v12, Cert.ReferenceIdeal.ReadP.val_main_v13, Cert.ReferenceIdeal.ReadP.val_main_v10, Cert.ReferenceIdeal.ReadP.val_main_v11, Cert.ReferenceIdeal.ReadP.val_main_v9, Cert.ReferenceIdeal.ReadP.val_main_v8, Cert.ReferenceIdeal.ReadP.val_main_v7, Cert.ReferenceIdeal.ReadP.val_main_cst, Cert.ReferenceIdeal.ReadP.val_main_cst_0, Cert.ReferenceIdeal.ReadP.val_main_cst_1, Cert.ReferenceIdeal.ReadP.val_main_cst_2, Cert.ReferenceIdeal.ReadP.val_main_call0_v0, Cert.ReferenceIdeal.ReadP.val_main_call0_v1, Cert.ReferenceIdeal.ReadP.val_main_v36, Cert.ReferenceIdeal.ReadP.val_main_v35, Cert.ReferenceIdeal.ReadP.val_main_v32, Cert.ReferenceIdeal.ReadP.val_main_v34, Cert.ReferenceIdeal.ReadP.val_main_v31, Cert.ReferenceIdeal.ReadP.val_main_v33, Cert.ReferenceIdeal.ReadP.val_main_c_6, Cert.ReferenceIdeal.ReadP.val_main_c_7, Cert.ReferenceIdeal.ReadP.val_main_v3, Cert.ReferenceIdeal.ReadP.val_main_v2, Cert.ReferenceIdeal.ReadP.val_main_v1]
  rfl

end AnyFloats

/-! ## Each stage read at an entry, over the extended reals -/

/-- The edge-index argument's type. -/
abbrev EdgeIdx : Type := (⟨S2x600000, .i32⟩ : BufTy).Contents (Elt Ideal)

/-- The source node of edge `e`. -/
def srcNode (x1 : EdgeIdx) (e : Fin 700000) : Fin 100000 := srcRow (by norm_num : 0 < 100000) (srcIdx (F := Ideal) x1) e

theorem dinvRows_apply (x1 : EdgeIdx) (u : Fin 100000) (k : Fin 128) :
    dinvRows (F := Ideal) x1 (ix2 u k) = dinv (F := Ideal) x1 (ix1 u) := by
  unfold dinvRows
  generalize dinv (F := Ideal) x1 = y
  rw [broadcastInDim_apply _ bcast_S100000x1_S100000x128_0_1 _ (ix2 u k) (ix2 u (0 : Fin 1)) (fun a => match a with
    | ⟨0, _⟩ => by show u.val = if (100000 : Nat) = 1 then 0 else u.val; rw [if_neg (by decide)]
    | ⟨1, _⟩ => by show 0 = if (1 : Nat) = 1 then 0 else k.val; rw [if_pos rfl])]
  exact broadcastInDim_apply _ bcast_S100000_S100000x1_0 y (ix2 u (0 : Fin 1)) (ix1 u) (fun a => match a with
    | ⟨0, _⟩ => by show u.val = if (100000 : Nat) = 1 then 0 else u.val; rw [if_neg (by decide)])

theorem scaledRows_apply (x0 : FVec Ideal S100000x128 .f32) (x1 : EdgeIdx) (u : Fin 100000) (k : Fin 128) :
    scaledRows x0 x1 (ix2 u k) = x0 (ix2 u k) * dinv (F := Ideal) x1 (ix1 u) := by
  unfold scaledRows
  rw [truncf_apply, mulf_apply, dinvRows_apply]

theorem edgeRows_apply (x0 : FVec Ideal S100000x128 .f32) (x1 : EdgeIdx) (e : Fin 700000) (k : Fin 128) :
    edgeRows x0 x1 (ix2 e k) = x0 (ix2 (srcNode x1 e) k) * dinv (F := Ideal) x1 (ix1 (srcNode x1 e)) := by
  unfold edgeRows
  rw [extf_apply]
  have hg : gather_S100000x128_S700000x1_S700000x128_1_0_n_n_0_1_1128
      = rowGatherDims 100000 700000 128 gather_S100000x128_S700000x1_S700000x128_1_0_n_n_0_1_1128.wf := rfl
  rw [hg]
  exact (gather_rows_apply (by norm_num : 0 < 100000) _ (scaledRows x0 x1) (srcIdx (F := Ideal) x1) e k).trans (scaledRows_apply x0 x1 _ k)

theorem aggRaw_apply (x0 : FVec Ideal S100000x128 .f32) (x1 : EdgeIdx) (r : Fin 100000) (k : Fin 128) :
    aggRaw x0 x1 (ix2 r k)
      = ∑ e : Fin 700000, if (dstIdx (F := Ideal) x1 (ix2 e 0)).toInt = (r.val : ℤ)
          then x0 (ix2 (srcNode x1 e) k) * dinv (F := Ideal) x1 (ix1 (srcNode x1 e)) else 0 := by
  unfold aggRaw
  have hs : scatter_S100000x128_S700000x1_S700000x128_1_0_0_1
      = rowScatterDims 100000 700000 128 scatter_S100000x128_S700000x1_S700000x128_1_0_0_1.wf := rfl
  rw [hs]
  refine (host_scatterAdd_rows_apply (φ := .f32) _ (dstIdx (F := Ideal) x1) _ (edgeRows x0 x1) r k).trans ?_
  have hz : (broadcastInDim S100000x128 ![] bcast_S_S100000x128 (constant (F := Ideal) S_ .f32 0x00000000#32)) (ix2 r k) = 0 := by
    show Ideal.ofBits .f32 0x00000000#32 = 0
    exact Ideal.ofBits_zero_f32
  rw [hz, zero_add]
  refine Finset.sum_congr rfl fun e _ => ?_
  rw [edgeRows_apply]

/-- THE AGGREGATED ARRAY READ AT `(r, k)`. -/
theorem aggArr_apply (x0 : FVec Ideal S100000x128 .f32) (x1 : EdgeIdx) (r : Fin 100000) (k : Fin 128) :
    aggArr x0 x1 (ix2 r k) = Cert.Gcn.aggAt x0 (dinv (F := Ideal) x1) (srcNode x1) (dstIdx (F := Ideal) x1) r k := by
  unfold aggArr Cert.Gcn.aggAt
  rw [mulf_apply, aggRaw_apply, dinvRows_apply]

end Cert.Gcn.KernelHost

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.LibRowReduce.lean ====
/-
  Row reductions of a matrix and a scalar broadcast, read at an index given by coordinates, at the exact values.

  A `vector.multi_reduction` along axis `1` of an `[a, b]` array, read at row `p`: for `<add>` from the zero word the sum
  over the row's `b` entries; for `<maximumf>` from the word of `-∞` the fold of `max` over them, in any order. Both are
  stated with the accumulator hypothesis as the printed programs carry it (an equation between two copies of the same
  word), so that they apply to a printed reduction as it stands. A `[1, 1]` array broadcast to `[a, b]` reads its one
  entry everywhere. Generic in `a` and `b`.
-/
import Idealize.ShloMosaic.Lib.Pipeline.Value
import Idealize.ShloMosaic.Lib.ValueIdx
import Idealize.ShloMosaic.PureOps.Ideal.Laws

namespace Idealize.ShloMosaic.ValueIdx

open Idealize.ShloMosaic

/-- A `[1, 1]` array broadcast to `[a, b]` reads, at every `(p, c)`, its one entry: both axes of the operand are unit
    axes and read coordinate `0`. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) :=
  broadcastTo_apply v h (ix2 p c) (ix2 (0 : Fin 1) (0 : Fin 1)) fun ax => by
    match ax with
    | ⟨0, _⟩ => rfl
    | ⟨1, _⟩ => rfl

/-- The sum along the rows of an `[a, b]` array of exact values, at row `p`: the sum over the row's `b` entries (the
    reduced index with the coordinate `t` put back on axis `1` is `(p, t)`). -/
theorem multiReduction_add_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ t : Fin b, src (ix2 p t) := by
  refine (Ideal.multiReduction_add_single src 0x00000000#32 h hφ hacc (ix1 p)).trans ?_
  exact Finset.sum_congr rfl fun t _ => congrArg src (funext fun c => Fin.ext (by
    match c with
    | ⟨0, _⟩ => rfl
    | ⟨1, _⟩ => rfl))

/-- The maximum along the rows of an `[a, b]` array of exact values, at row `p`: the fold of `max` over the row's `b`
    entries, started from what the word of `-∞` denotes. -/
theorem multiReduction_maximumf_row {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun t => src (ix2 p t)) := by
  refine (Ideal.multiReduction_maximumf_single src 0xFF800000#32 h hφ hacc (ix1 p)).trans ?_
  refine congrArg ((Finset.univ : Finset (Fin b)).fold max (Ideal.ofBits .f32 0xFF800000#32)) (funext fun t => ?_)
  exact congrArg src (funext fun c => Fin.ext (by
    match c with
    | ⟨0, _⟩ => rfl
    | ⟨1, _⟩ => rfl))

end Idealize.ShloMosaic.ValueIdx
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPayload.lean ====
/-
  The body of the row-block kernel, read entry by entry.

  One grid point holds 5000 rows.  From the block a of aggregated rows, the matrix w, the block x of the nodes' own
  rows, the bias b and the two normalisation vectors g, β, the body forms the product a · w, adds the bias, takes the
  positive part and adds x (the activated block), and then normalises every row of the activated block: the row's sum
  divided by 128 is its mean, the sum of the squared deviations divided by 128 its variance, and each deviation is
  multiplied by the inverse square root of the shifted variance, scaled by g and shifted by β.  Entry (p, q) of the
  result is therefore entry q of the normalised activated row p, which depends on row p of a and of x only.
-/
import proofs.«122670_j75290776699105_2_alg».proof.Proof.Gen.KernelIdeal.Value
import proofs.«122670_j75290776699105_2_alg».proof.Proof.Spec
import proofs.«122670_j75290776699105_2_alg».proof.Proof.LibDotPlain
import proofs.«122670_j75290776699105_2_alg».proof.Proof.LibRowReduce
import proofs.«122670_j75290776699105_2_alg».proof.Proof.LibKeepdims
import Idealize.ShloMosaic.Lib.ValueLayout

noncomputable section

open scoped BigOperators

namespace Cert.Gcn.Kernel

open Idealize.ShloMosaic Idealize.ShloMosaic.ValueIdx Cert.KernelIdeal Cert.KernelIdeal.Gen

/-! ## The product with the matrix -/

/-- The block of aggregated rows times the matrix, into a zero accumulator. -/
def prodBlk (a : Vec Ideal S5000x128 .f32) (w : Vec Ideal S128x128 .f32) : FVec Ideal S5000x128 .f32 :=
  have v1 : FVec Ideal S5000x128 .f32 := shapeCast S5000x128 a shapeCasts_S5000x128_S5000x128
  have v2 : FVec Ideal S5000x128 .bf16 := truncf .bf16 v1 bitsLt_bf16_f32
  have v4 : FVec Ideal S128x128 .bf16 := truncf .bf16 w bitsLt_bf16_f32
  have cst : FVec Ideal S5000x128 .f32 := constant S5000x128 .f32 0x00000000#32
  matmul dot_S5000x128_S128x128_S5000x128_1_0_0_1_n_n none v2 v4 cst

/-- Where the product reads its operands: the left one at (row of the entry, contracted coordinate), -/
theorem dot_lhs0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem dot_lhs1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k

/-- the right one at (contracted coordinate, column of the entry). -/
theorem dot_rhs0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k

theorem dot_rhs1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of the product: row p of the block against column q of the matrix (the narrowing of the operands is
    the identity on exact values, and the cast of the block to its own shape reads it as it is). -/
theorem prodBlk_apply (a : Vec Ideal S5000x128 .f32) (w : Vec Ideal S128x128 .f32) (p : Fin 5000) (q : Fin 128) :
    prodBlk a w (ix2 p q) = ∑ k : Fin 128, a (ix2 p k) * w (ix2 k q) := by
  unfold prodBlk
  refine (Cert.LibDotPlain.matmul_zero_plain (N := 5000) (K := 128) (M := 128)
    dot_S5000x128_S128x128_S5000x128_1_0_0_1_n_n rfl rfl dot_lhs0 dot_lhs1 dot_rhs0 dot_rhs1 none _ _ p q).trans ?_
  refine Finset.sum_congr rfl fun k _ => ?_
  rw [truncf_apply, truncf_apply, shapeCast_self]

/-! ## The activated block -/

/-- The activated block: the positive part of the product plus the bias, plus the nodes' own rows. -/
def actBlk (a x : Vec Ideal S5000x128 .f32) (w : Vec Ideal S128x128 .f32) (b : Vec Ideal S128 .f32) :
    FVec Ideal S5000x128 .f32 :=
  have v5 : FVec Ideal S5000x128 .f32 := prodBlk a w
  have v8 : FVec Ideal S1x128 .f32 := shapeCast S1x128 b shapeCasts_S128_S1x128
  have v9 : FVec Ideal S5000x128 .f32 := broadcastTo S5000x128 v8 broadcasts_S1x128_S5000x128
  have v10 : FVec Ideal S5000x128 .f32 := addf v5 v9
  have cst_6 : Ideal .f32 := Scalar.ofBits .f32 0x00000000#32
  have v11 : FVec Ideal S5000x128 .f32 := broadcast S5000x128 cst_6
  have v12 : FVec Ideal S5000x128 .f32 := maximumf v10 v11
  addf v12 x

/-- Entry (p, q) of the activated block is entry q of the activated row p. -/
theorem actBlk_apply (a x : Vec Ideal S5000x128 .f32) (w : Vec Ideal S128x128 .f32) (b : Vec Ideal S128 .f32)
    (p : Fin 5000) (q : Fin 128) :
    actBlk a x w b (ix2 p q)
      = Cert.Gcn.actRow (fun j => ∑ k : Fin 128, a (ix2 p k) * w (ix2 k j)) (fun j => b (ix1 j)) (fun j => x (ix2 p j)) q := by
  unfold actBlk Cert.Gcn.actRow
  show max (prodBlk a w (ix2 p q)
      + broadcastTo S5000x128 (shapeCast S1x128 b shapeCasts_S128_S1x128) broadcasts_S1x128_S5000x128 (ix2 p q))
      (Ideal.ofBits .f32 0x00000000#32) + x (ix2 p q) = _
  rw [prodBlk_apply, broadcastTo_1b_ab_apply, shapeCast_a_1a_apply, Ideal.ofBits_zero_f32]

/-- The rows of the activated block. -/
theorem actBlk_row (a x : Vec Ideal S5000x128 .f32) (w : Vec Ideal S128x128 .f32) (b : Vec Ideal S128 .f32) (p : Fin 5000) :
    (fun j : Fin 128 => actBlk a x w b (ix2 p j))
      = Cert.Gcn.actRow (fun j => ∑ k : Fin 128, a (ix2 p k) * w (ix2 k j)) (fun j => b (ix1 j)) (fun j => x (ix2 p j)) :=
  funext fun j => actBlk_apply a x w b p j

/-! ## The row normalisation of a block -/

/-- The sums of a block's rows, kept as a column. -/
def rowSumCol (y : FVec Ideal S5000x128 .f32) : FVec Ideal S5000x1 .f32 :=
  have v14 : FVec Ideal S5000 .f32 := multiReduction .add [1] S5000 y 0x00000000#32 reduces_S5000x128_S5000 (.inl rfl) rfl
  shapeCast S5000x1 v14 shapeCasts_S5000_S5000x1

theorem rowSumCol_apply (y : FVec Ideal S5000x128 .f32) (p : Fin 5000) (u : Fin 1) :
    rowSumCol y (ix2 p u) = ∑ t : Fin 128, y (ix2 p t) := by
  unfold rowSumCol
  refine (shapeCast_a_a1_apply _ shapeCasts_S5000_S5000x1 p u).trans ?_
  exact multiReduction_add_row y reduces_S5000x128_S5000 (.inl rfl) rfl p

/-- The means of a block's rows, as a column: the row sums divided by the row length. -/
def meanCol (y : FVec Ideal S5000x128 .f32) : FVec Ideal S5000x1 .f32 :=
  have v15 : FVec Ideal S5000x1 .f32 := rowSumCol y
  have cst_8 : Ideal .f32 := Scalar.ofBits .f32 0x43000000#32
  have v16 : FVec Ideal S5000x1 .f32 := broadcast S5000x1 cst_8
  divf v15 v16

theorem meanCol_apply (y : FVec Ideal S5000x128 .f32) (p : Fin 5000) (u : Fin 1) :
    meanCol y (ix2 p u) = Cert.Gcn.rowMean (fun j => y (ix2 p j)) := by
  unfold meanCol Cert.Gcn.rowMean Cert.Gcn.c128
  show Ideal.div (rowSumCol y (ix2 p u)) (Ideal.ofBits .f32 0x43000000#32) = _
  rw [rowSumCol_apply]

/-- The deviations of a block's entries from their rows' means. -/
def devBlk (y : FVec Ideal S5000x128 .f32) : FVec Ideal S5000x128 .f32 :=
  have v17 : FVec Ideal S5000x1 .f32 := meanCol y
  have v18 : FVec Ideal S5000x128 .f32 := broadcastTo S5000x128 v17 broadcasts_S5000x1_S5000x128
  subf y v18

theorem devBlk_apply (y : FVec Ideal S5000x128 .f32) (p : Fin 5000) (q : Fin 128) :
    devBlk y (ix2 p q) = y (ix2 p q) - Cert.Gcn.rowMean (fun j => y (ix2 p j)) := by
  unfold devBlk
  show y (ix2 p q) - broadcastTo S5000x128 (meanCol y) broadcasts_S5000x1_S5000x128 (ix2 p q) = _
  rw [broadcastTo_a1_ab_apply, meanCol_apply]

/-- The inverse square roots of the rows' shifted variances, as a column. -/
def rstdCol (y : FVec Ideal S5000x128 .f32) : FVec Ideal S5000x1 .f32 :=
  have v19 : FVec Ideal S5000x128 .f32 := devBlk y
  have v20 : FVec Ideal S5000x128 .f32 := mulf v19 v19
  have v22 : FVec Ideal S5000x1 .f32 := rowSumCol v20
  have cst_10 : Ideal .f32 := Scalar.ofBits .f32 0x43000000#32
  have v23 : FVec Ideal S5000x1 .f32 := broadcast S5000x1 cst_10
  have v24 : FVec Ideal S5000x1 .f32 := divf v22 v23
  have cst_11 : Ideal .f32 := Scalar.ofBits .f32 0x322BCC77#32
  have v25 : FVec Ideal S5000x1 .f32 := broadcast S5000x1 cst_11
  have v26 : FVec Ideal S5000x1 .f32 := addf v24 v25
  rsqrt v26

theorem rstdCol_apply (y : FVec Ideal S5000x128 .f32) (p : Fin 5000) (u : Fin 1) :
    rstdCol y (ix2 p u) = Ideal.rsqrt (Cert.Gcn.rowVar (fun j => y (ix2 p j)) + Cert.Gcn.ceps) := by
  unfold rstdCol Cert.Gcn.rowVar Cert.Gcn.ceps Cert.Gcn.c128
  show Ideal.rsqrt (Ideal.div (rowSumCol (mulf (devBlk y) (devBlk y)) (ix2 p u)) (Ideal.ofBits .f32 0x43000000#32)
      + Ideal.ofBits .f32 0x322BCC77#32) = _
  rw [rowSumCol_apply]
  refine congrArg (fun s => Ideal.rsqrt (Ideal.div s (Ideal.ofBits .f32 0x43000000#32) + Ideal.ofBits .f32 0x322BCC77#32)) ?_
  refine Finset.sum_congr rfl fun t _ => ?_
  rw [mulf_apply, devBlk_apply]

/-- The normalised block: every deviation times its row's inverse square root, scaled and shifted entry by entry along
    the row. -/
def normBlk (y : FVec Ideal S5000x128 .f32) (g β : Vec Ideal S128 .f32) : FVec Ideal S5000x128 .f32 :=
  have v19 : FVec Ideal S5000x128 .f32 := devBlk y
  have v27 : FVec Ideal S5000x1 .f32 := rstdCol y
  have v30 : FVec Ideal S5000x128 .f32 := broadcastTo S5000x128 v27 broadcasts_S5000x1_S5000x128
  have v31 : FVec Ideal S5000x128 .f32 := mulf v19 v30
  have v32 : FVec Ideal S1x128 .f32 := shapeCast S1x128 g shapeCasts_S128_S1x128
  have v33 : FVec Ideal S5000x128 .f32 := broadcastTo S5000x128 v32 broadcasts_S1x128_S5000x128
  have v34 : FVec Ideal S5000x128 .f32 := mulf v31 v33
  have v35 : FVec Ideal S1x128 .f32 := shapeCast S1x128 β shapeCasts_S128_S1x128
  have v36 : FVec Ideal S5000x128 .f32 := broadcastTo S5000x128 v35 broadcasts_S1x128_S5000x128
  addf v34 v36

/-- Entry (p, q) of the normalised block is entry q of the normalised row p. -/
theorem normBlk_apply (y : FVec Ideal S5000x128 .f32) (g β : Vec Ideal S128 .f32) (p : Fin 5000) (q : Fin 128) :
    normBlk y g β (ix2 p q) = Cert.Gcn.lnRow (fun j => y (ix2 p j)) (fun j => g (ix1 j)) (fun j => β (ix1 j)) q := by
  unfold normBlk Cert.Gcn.lnRow
  show devBlk y (ix2 p q) * broadcastTo S5000x128 (rstdCol y) broadcasts_S5000x1_S5000x128 (ix2 p q)
      * broadcastTo S5000x128 (shapeCast S1x128 g shapeCasts_S128_S1x128) broadcasts_S1x128_S5000x128 (ix2 p q)
      + broadcastTo S5000x128 (shapeCast S1x128 β shapeCasts_S128_S1x128) broadcasts_S1x128_S5000x128 (ix2 p q) = _
  rw [devBlk_apply, broadcastTo_a1_ab_apply, rstdCol_apply, broadcastTo_1b_ab_apply, shapeCast_a_1a_apply,
    broadcastTo_1b_ab_apply, shapeCast_a_1a_apply]

/-! ## The body -/

/-- The body's result is the normalised activated block. -/
theorem pay_eq (a x : Vec Ideal S5000x128 .f32) (w : Vec Ideal S128x128 .f32) (b g β : Vec Ideal S128 .f32) :
    k0_pay1 (F := Ideal) a w x b g β = normBlk (actBlk a x w b) g β := rfl

/-- Entry (p, q) of the body's result: entry q of the normalised activated row p, the aggregated row p times the
    matrix taken sum by sum. -/
theorem payload_apply (a x : Vec Ideal S5000x128 .f32) (w : Vec Ideal S128x128 .f32) (b g β : Vec Ideal S128 .f32)
    (p : Fin 5000) (q : Fin 128) :
    k0_pay1 (F := Ideal) a w x b g β (ix2 p q)
      = Cert.Gcn.lnRow (Cert.Gcn.actRow (fun j => ∑ k : Fin 128, a (ix2 p k) * w (ix2 k j)) (fun j => b (ix1 j))
          (fun j => x (ix2 p j))) (fun j => g (ix1 j)) (fun j => β (ix1 j)) q := by
  rw [pay_eq, normBlk_apply, actBlk_row]

end Cert.Gcn.Kernel

end
-- ==== Proof.KernelFinal.lean ====
/-
  From the row blocks to the whole array.

  The grid has 20 points; point t holds rows 5000 t, ..., 5000 t + 4999 of the aggregated array, of the nodes' own rows
  and of the output, and the matrix, the bias and the two normalisation vectors whole.  What point t writes back is
  therefore block t of one array: the layer's output computed from the aggregated array times the matrix.  The 20 blocks
  tile the 100000 rows (row r lies in block r / 5000), so after the run the output array is that array.
-/
import proofs.«122670_j75290776699105_2_alg».proof.Proof.KernelPayload

set_option maxRecDepth 16384

noncomputable section

open scoped BigOperators

namespace Cert.Gcn.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The index maps over the 20 points: the three row-blocked windows sit at block (t, 0), the four whole ones at block 0. -/
theorem idx_facts6 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0 :=
  (by decide +kernel : ∀ t : Fin grid0.N, _)

/-- The layer's output from an aggregated array A times a matrix W, the nodes' own rows X, a bias and two
    normalisation vectors. -/
abbrev outOf (A : S100000x128.Idx → EReal) (W : S128x128.Idx → EReal) (X : S100000x128.Idx → EReal)
    (B Gm Bt : S128.Idx → EReal) : Cert.Gcn.SNH.Idx → EReal :=
  Cert.Gcn.layerOut (fun r j => ∑ k : Fin 128, A (ix2 r k) * W (ix2 k j)) X B Gm Bt

/-- The layer's output from the aggregated array as the region finds it, times the matrix. -/
abbrev outArr (c : Dev nD) : Cert.Gcn.SNH.Idx → EReal :=
  outOf (V m c main_v32) (m ((c : Thread nD τ).loc main_arg2)) (m ((c : Thread nD τ).loc main_arg0))
    (m ((c : Thread nD τ).loc main_arg3)) (m ((c : Thread nD τ).loc main_arg4)) (m ((c : Thread nD τ).loc main_arg5))

/-! ## A block of an array, read where the grid point puts it

  These are stated for any array: the block of point t is rows 5000 t, ..., 5000 t + 4999 for the three row-blocked
  windows, and the whole array for the other four. -/

theorem blk0_read (A : S100000x128.Idx → EReal) (t : Fin cfg0.N) (p : Fin 5000) (k : Fin 128) (r : Fin 100000)
    (hr : r.val = 5000 * t.val + p.val) :
    ((cfg0.win 0).blk t).view.read (Elt Ideal) A (ix2 p k) = A (ix2 r k) := by
  obtain ⟨e0, e1, -⟩ := idx_facts6 t
  rw [View.read_apply]
  show A _ = A _
  refine congrArg A (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

theorem blk1_read (X : S100000x128.Idx → EReal) (t : Fin cfg0.N) (p : Fin 5000) (j : Fin 128) (r : Fin 100000)
    (hr : r.val = 5000 * t.val + p.val) :
    ((cfg0.win 1).blk t).view.read (Elt Ideal) X (ix2 p j) = X (ix2 r j) := by
  obtain ⟨-, -, e2, e3, -⟩ := idx_facts6 t
  rw [View.read_apply]
  show X _ = X _
  refine congrArg X (funext fun a => Fin.ext ?_)
  match a with
  | ⟨0, _⟩ => show win0_1.index t (0 : Fin 2) * 5000 + 1 * p.val = r.val; rw [e2, hr]; omega
  | ⟨1, _⟩ => show win0_1.index t (1 : Fin 2) * 128 + 1 * j.val = j.val; rw [e3]; omega

theorem blk6_read (G : S100000x128.Idx → EReal) (t : Fin cfg0.N) (p : Fin 5000) (q : Fin 128) (r : Fin 100000)
    (hr : r.val = 5000 * t.val + p.val) :
    ((cfg0.win 6).blk t).view.read (Elt Ideal) G (ix2 p q) = G (ix2 r q) := by
  obtain ⟨-, -, -, -, e4, e5, -⟩ := idx_facts6 t
  rw [View.read_apply]
  show G _ = G _
  refine congrArg G (funext fun a => Fin.ext ?_)
  match a with
  | ⟨0, _⟩ => show win0_6.index t (0 : Fin 2) * 5000 + 1 * p.val = r.val; rw [e4, hr]; omega
  | ⟨1, _⟩ => show win0_6.index t (1 : Fin 2) * 128 + 1 * q.val = q.val; rw [e5]; omega

theorem blk2_read (W : S128x128.Idx → EReal) (t : Fin cfg0.N) (k j : Fin 128) :
    ((cfg0.win 2).blk t).view.read (Elt Ideal) W (ix2 k j) = W (ix2 k j) := by
  obtain ⟨-, -, -, -, -, -, e6, e7, -⟩ := idx_facts6 t
  rw [View.read_apply]
  show W _ = W _
  refine congrArg W (funext fun a => Fin.ext ?_)
  match a with
  | ⟨0, _⟩ => show win0_2.index t (0 : Fin 2) * 128 + 1 * k.val = k.val; rw [e6]; omega
  | ⟨1, _⟩ => show win0_2.index t (1 : Fin 2) * 128 + 1 * j.val = j.val; rw [e7]; omega

theorem blk3_read (B : S128.Idx → EReal) (t : Fin cfg0.N) (j : Fin 128) :
    ((cfg0.win 3).blk t).view.read (Elt Ideal) B (ix1 j) = B (ix1 j) := by
  obtain ⟨-, -, -, -, -, -, -, -, e8, -⟩ := idx_facts6 t
  rw [View.read_apply]
  show B _ = B _
  refine congrArg B (funext fun a => Fin.ext ?_)
  match a with
  | ⟨0, _⟩ => show win0_3.index t (0 : Fin 1) * 128 + 1 * j.val = j.val; rw [e8]; omega

theorem blk4_read (B : S128.Idx → EReal) (t : Fin cfg0.N) (j : Fin 128) :
    ((cfg0.win 4).blk t).view.read (Elt Ideal) B (ix1 j) = B (ix1 j) := by
  obtain ⟨-, -, -, -, -, -, -, -, -, e9, -⟩ := idx_facts6 t
  rw [View.read_apply]
  show B _ = B _
  refine congrArg B (funext fun a => Fin.ext ?_)
  match a with
  | ⟨0, _⟩ => show win0_4.index t (0 : Fin 1) * 128 + 1 * j.val = j.val; rw [e9]; omega

theorem blk5_read (B : S128.Idx → EReal) (t : Fin cfg0.N) (j : Fin 128) :
    ((cfg0.win 5).blk t).view.read (Elt Ideal) B (ix1 j) = B (ix1 j) := by
  obtain ⟨-, -, -, -, -, -, -, -, -, -, e10⟩ := idx_facts6 t
  rw [View.read_apply]
  show B _ = B _
  refine congrArg B (funext fun a => Fin.ext ?_)
  match a with
  | ⟨0, _⟩ => show win0_5.index t (0 : Fin 1) * 128 + 1 * j.val = j.val; rw [e10]; omega

/-- The output window is not cut: a block's entry is read where it is. -/
theorem cut6_apply (Y : S5000x128.Idx → EReal) (t : Fin cfg0.N) (p : Fin 5000) (q : Fin 128) :
    (cfg0.win 6).cut (grid0.coords t) Y (ix2 p q) = Y (ix2 p q) := rfl

/-! ## What a point writes back -/

/-- Two normalised activated rows built from equal data are equal. -/
theorem lnAct_congr {P P' b b' x x' g g' β β' : Fin 128 → EReal} (hP : P = P') (hb : b = b') (hx : x = x')
    (hg : g = g') (hβ : β = β') (q : Fin 128) :
    Cert.Gcn.lnRow (Cert.Gcn.actRow P b x) g β q = Cert.Gcn.lnRow (Cert.Gcn.actRow P' b' x') g' β' q := by
  subst hP hb hx hg hβ; rfl

/-- For any arrays: the body's result on the blocks of point t is block t of the layer's output. -/
theorem flushed_of (A : S100000x128.Idx → EReal) (W : S128x128.Idx → EReal) (X : S100000x128.Idx → EReal)
    (B Gm Bt : S128.Idx → EReal) (t : Fin cfg0.N)
    (a x : Vec Ideal S5000x128 .f32) (w : Vec Ideal S128x128 .f32) (b g β : Vec Ideal S128 .f32)
    (ha : a = ((cfg0.win 0).blk t).view.read (Elt Ideal) A) (hx : x = ((cfg0.win 1).blk t).view.read (Elt Ideal) X)
    (hw : w = ((cfg0.win 2).blk t).view.read (Elt Ideal) W) (hb : b = ((cfg0.win 3).blk t).view.read (Elt Ideal) B)
    (hg : g = ((cfg0.win 4).blk t).view.read (Elt Ideal) Gm) (hβ : β = ((cfg0.win 5).blk t).view.read (Elt Ideal) Bt) :
    (cfg0.win 6).cut (grid0.coords t) (k0_pay1 (F := Ideal) a w x b g β)
      = ((cfg0.win 6).blk t).view.read (Elt Ideal) (outOf A W X B Gm Bt) := by
  refine funext fun j => ?_
  obtain ⟨p, q, rfl⟩ : ∃ (p : Fin 5000) (q : Fin 128), j = ix2 p q := ⟨j 0, j 1, eq_ix2 (n0 := 5000) (n1 := 128) j⟩
  have hN : t.val < 20 := Nat.lt_of_lt_of_eq t.isLt N_0
  have hlt : 5000 * t.val + p.val < 100000 := by have := p.isLt; omega
  refine (cut6_apply _ t p q).trans ((payload_apply a x w b g β p q).trans ?_)
  refine Eq.trans ?_ (blk6_read (outOf A W X B Gm Bt) t p q ⟨5000 * t.val + p.val, hlt⟩ rfl).symm
  refine Eq.trans ?_ (Cert.Gcn.layerOut_ix2 _ X B Gm Bt ⟨5000 * t.val + p.val, hlt⟩ q).symm
  subst ha hx hw hb hg hβ
  refine lnAct_congr (funext fun j => Finset.sum_congr rfl fun k _ => ?_) (funext fun j => ?_) (funext fun j => ?_)
    (funext fun j => ?_) (funext fun j => ?_) q
  · rw [blk0_read A t p k ⟨5000 * t.val + p.val, hlt⟩ rfl, blk2_read W t k j]
  · exact blk3_read B t j
  · exact blk1_read X t p j ⟨5000 * t.val + p.val, hlt⟩ rfl
  · exact blk4_read Gm t j
  · exact blk5_read Bt t j

/-- WHAT POINT t WRITES BACK is block t of the layer's output computed from the aggregated array as the region finds it. -/
theorem flushed6_eq (c : Dev nD) (t : Fin cfg0.N) :
    (dats m 0 c).flushed 6 t = ((cfg0.win 6).blk t).view.read (Elt Ideal) (outArr m c) := by
  rw [Cert.KernelIdeal.Value.flushed6]
  unfold out0_6
  rw [View.canon_unit_zero hz2]
  simp only [View.ld_unit_zero (S := S5000x128) hz2, View.ld_unit_zero (S := S128x128) hz2, View.ld_unit_zero (S := S128) hz1]
  exact flushed_of (V m c main_v32) (m ((c : Thread nD τ).loc main_arg2)) (m ((c : Thread nD τ).loc main_arg0))
    (m ((c : Thread nD τ).loc main_arg3)) (m ((c : Thread nD τ).loc main_arg4)) (m ((c : Thread nD τ).loc main_arg5)) t
    (iblk m c 0 t) (iblk m c 1 t) (iblk m c 2 t) (iblk m c 3 t) (iblk m c 4 t) (iblk m c 5 t)
    rfl
    ((show iblk m c 1 t = ((cfg0.win 1).blk t).view.read (Elt Ideal) (V m c main_arg0) from rfl).trans
      (congrArg (fun Y : Buf (Elt Ideal) ((c : Thread nD τ).loc main_arg0) => ((cfg0.win 1).blk t).view.read (Elt Ideal) Y) (V_main_arg0 m c)))
    ((show iblk m c 2 t = ((cfg0.win 2).blk t).view.read (Elt Ideal) (V m c main_arg2) from rfl).trans
      (congrArg (fun Y : Buf (Elt Ideal) ((c : Thread nD τ).loc main_arg2) => ((cfg0.win 2).blk t).view.read (Elt Ideal) Y) (V_main_arg2 m c)))
    ((show iblk m c 3 t = ((cfg0.win 3).blk t).view.read (Elt Ideal) (V m c main_arg3) from rfl).trans
      (congrArg (fun Y : Buf (Elt Ideal) ((c : Thread nD τ).loc main_arg3) => ((cfg0.win 3).blk t).view.read (Elt Ideal) Y) (V_main_arg3 m c)))
    ((show iblk m c 4 t = ((cfg0.win 4).blk t).view.read (Elt Ideal) (V m c main_arg4) from rfl).trans
      (congrArg (fun Y : Buf (Elt Ideal) ((c : Thread nD τ).loc main_arg4) => ((cfg0.win 4).blk t).view.read (Elt Ideal) Y) (V_main_arg4 m c)))
    ((show iblk m c 5 t = ((cfg0.win 5).blk t).view.read (Elt Ideal) (V m c main_arg5) from rfl).trans
      (congrArg (fun Y : Buf (Elt Ideal) ((c : Thread nD τ).loc main_arg5) => ((cfg0.win 5).blk t).view.read (Elt Ideal) Y) (V_main_arg5 m c)))

/-! ## The blocks tile the array -/

/-- An index of the array is in point t's block iff each coordinate is in the block's range on its axis. -/
theorem mem_blk6 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v33).slice (win0_6.rect t)).set ↔ _
  rw [View.set_slice_whole, Rect.mem_set_unit]
  exact Iff.rfl

/-- Row r lies in the block of point r / 5000. -/
theorem cover6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, e4, e5, -⟩ := idx_facts6 ⟨(i 0).val / 5000, ht⟩
  refine ⟨⟨(i 0).val / 5000, ht⟩, flush0_6 _, ?_⟩
  rw [mem_blk6]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e5]
    omega

/-! ## The array after the run, and the run -/

/-- THE OUTPUT ARRAY after the run: the layer's output computed from the aggregated array as the region finds it times
    the matrix. -/
theorem final6 (c : Dev nD) :
    (dats m 0 c).arrAt 6 cfg0.N
      = Cert.Gcn.layerOut (fun r j => ∑ k : Fin 128,
            @HMul.hMul EReal EReal EReal instHMul (V m c main_v32 (ix2 r k)) (m ((c : Thread nD τ).loc main_arg2) (ix2 k j)))
          (m ((c : Thread nD τ).loc main_arg0)) (m ((c : Thread nD τ).loc main_arg3))
          (m ((c : Thread nD τ).loc main_arg4)) (m ((c : Thread nD τ).loc main_arg5)) :=
  (dats m 0 c).arrAt_eq_of_cover 6 (outArr m c) (fun t _ => flushed6_eq m c t) cover6

/-- The run: the output array at the layer's output, the arguments unchanged. -/
theorem run_layer : θ_run defs (onTc (τ := τ) (main (F := Ideal))) ⟨m, fun _ => 0, ρ⟩ fun r => ∀ c : Dev nD,
      r.2.mem ((c : Thread nD τ).loc main_v33)
        = Cert.Gcn.layerOut (fun r j => ∑ k : Fin 128,
            @HMul.hMul EReal EReal EReal instHMul (V m c main_v32 (ix2 r k)) (m ((c : Thread nD τ).loc main_arg2) (ix2 k j)))
            (m ((c : Thread nD τ).loc main_arg0)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2⟩) (Cert.KernelIdeal.Value.run_blocks m ρ)

end Cert.Gcn.Kernel

end
-- ==== Proof.LibGatherVec.lean ====
/-
  Entries of a vector picked by an integer list.

  A one-dimensional array `x : [N]` indexed by a list of positions `idx : [E, 1]` (what `x[idx]` of a vector at a vector
  of integers lowers to) gives the array `[E]` whose entry `e` is entry `idx e` of `x`, the position read as a signed
  integer and clamped into `[0, N - 1]`.  The position is the same function of the list as the row a row lookup of a
  matrix `[N, C]` by the same list finds, so that a vector and a matrix looked up by one list are read at the same place.

  Generic in the extents `N` and `E`; the dimension numbers are spelt as literals so that a program's own record of
  them unifies (its side condition `wf` is a parameter).
-/
import Idealize.ShloMosaic.Lib.ValueIdx
import proofs.«122670_j75290776699105_2_alg».proof.Proof.LibRowGatherScatter

noncomputable section

namespace Cert.GatherVec

open Idealize.ShloMosaic Idealize.ShloMosaic.ValueIdx

variable {α : Type}

/-- The dimension numbers of `x[idx]` for a vector `x : [N]` and positions `idx : [E, 1]`: the result has no offset axis,
    the operand's only axis is collapsed and is the one the start index names. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the entry of `x` at the position that entry `e` of the list names, read signed and
    clamped into `[0, N - 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (Cert.RowGatherScatter.srcRow hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Cert.GatherVec

end
-- ==== Proof.RefValue.lean ====
/-
  The reference arrangement of the layer, read index by index.

  The reference multiplies every node's row by the matrix, looks the product up at each edge's source, weights the row by
  the inverse square roots of the in-degrees of the edge's source and destination, and accumulates the weighted rows at the
  destination numbers; it then adds the bias, takes the positive part, adds the node's own row, and normalises each row.
  Read at `(r, q)` its result is entry `q` of the normalised row of node `r` built from the pre-activation
  `preR`: the sum, over the edges whose destination number is `r`, of the source's product row weighted by both factors.

  Two facts about the integer side are recorded as well: an edge whose destination number is the node `r` is looked up
  at row `r` (a number in range is neither wrapped nor clamped), and every weight is a real number (the inverse square
  root of a positive degree, or zero).
-/
import proofs.«122670_j75290776699105_2_alg».proof.Proof.RefRead
import proofs.«122670_j75290776699105_2_alg».proof.Proof.Spec
import proofs.«122670_j75290776699105_2_alg».proof.Proof.LibRowGatherScatter
import proofs.«122670_j75290776699105_2_alg».proof.Proof.LibGatherVec
import Idealize.ShloMosaic.Lib.ValueIdx
import Idealize.ShloMosaic.PureOps.Ideal.Laws

noncomputable section

namespace Cert.Gcn.Ref

open Cert.ReferenceIdeal Cert.ReferenceIdeal.Gen Cert.ReferenceIdeal.ReadP Idealize.ShloMosaic Idealize.ShloMosaic.ValueIdx
open Cert.RowGatherScatter Cert.GatherVec

variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 x4 x5 : (⟨S128, .f32⟩ : BufTy).Contents (Elt Ideal))

/-! ## Indices from their coordinates -/

/-- A rank-2 index with the coordinates `a`, `b` is `ix2 a b`. -/
theorem idx2_eq {n0 n1 : Nat} (f : (⟨2, ![n0, n1]⟩ : Shape).Idx) (a : Fin n0) (b : Fin n1)
    (h0 : (f 0).val = a.val) (h1 : (f 1).val = b.val) : f = ix2 a b := by
  funext d; refine Fin.ext ?_
  match d with
  | ⟨0, _⟩ => exact h0
  | ⟨1, _⟩ => exact h1

/-- A rank-1 index with the coordinate `a` is `ix1 a`. -/
theorem idx1_eq {n : Nat} (f : (⟨1, ![n]⟩ : Shape).Idx) (a : Fin n) (h0 : (f 0).val = a.val) : f = ix1 a := by
  funext d; refine Fin.ext ?_
  match d with
  | ⟨0, _⟩ => exact h0

/-! ## The edges' endpoints as rows -/

/-- The row an edge's source number names: wrapped if negative, read signed, clamped into the node range. -/
def srcOf : Fin 700000 → Fin 100000 := fun e =>
  Cert.RowGatherScatter.srcRow (by norm_num : 0 < 100000) (val_main_v36 (F := Ideal) x1) e

/-- The row an edge's destination number names, found the same way. -/
def dstOf : Fin 700000 → Fin 100000 := fun e =>
  Cert.RowGatherScatter.srcRow (by norm_num : 0 < 100000) (val_main_v27 (F := Ideal) x1) e

/-! ## The program's lookup and accumulation records are the general ones -/

theorem gatherVec_rec : gather_S100000_S700000x1_S700000_n_0_n_n_0_1_1
    = vecGatherDims 100000 700000 gather_S100000_S700000x1_S700000_n_0_n_n_0_1_1_wf := rfl

theorem gatherRows_rec : gather_S100000x128_S700000x1_S700000x128_1_0_n_n_0_1_1128
    = rowGatherDims 100000 700000 128 gather_S100000x128_S700000x1_S700000x128_1_0_n_n_0_1_1128_wf := rfl

theorem scatterRows_rec : scatter_S100000x128_S700000x1_S700000x128_1_0_0_1
    = rowScatterDims 100000 700000 128 scatter_S100000x128_S700000x1_S700000x128_1_0_0_1_wf := rfl

/-! ## The edge weights -/

/-- The source numbers are wrapped once for the weight lookup and once for the row lookup: the same array. -/
theorem v20_eq_v36 : val_main_v20 (F := Ideal) x1 = val_main_v36 (F := Ideal) x1 := rfl

/-- The weight looked up at an edge's source. -/
theorem v21_at (e : Fin 700000) :
    val_main_v21 (F := Ideal) x1 (ix1 e) = val_main_v14 (F := Ideal) x1 (ix1 (srcOf x1 e)) := by
  unfold val_main_v21 srcOf
  rw [v20_eq_v36, gatherVec_rec]
  exact gather_vec_apply _ _ _ _ e

/-- The weight looked up at an edge's destination. -/
theorem v28_at (e : Fin 700000) :
    val_main_v28 (F := Ideal) x1 (ix1 e) = val_main_v14 (F := Ideal) x1 (ix1 (dstOf x1 e)) := by
  unfold val_main_v28 dstOf
  rw [gatherVec_rec]
  exact gather_vec_apply _ _ _ _ e

/-- An edge's weight: the product of its endpoints' factors. -/
theorem v29_at (e : Fin 700000) :
    val_main_v29 (F := Ideal) x1 (ix1 e)
      = val_main_v14 (F := Ideal) x1 (ix1 (srcOf x1 e)) * val_main_v14 (F := Ideal) x1 (ix1 (dstOf x1 e)) := by
  rw [val_main_v29_apply, v21_at, v28_at]
  rfl

/-- The edge's weight repeated along its row. -/
theorem v39_at (e : Fin 700000) (j : Fin 128) :
    val_main_v39 (F := Ideal) x1 (ix2 e j)
      = val_main_v14 (F := Ideal) x1 (ix1 (srcOf x1 e)) * val_main_v14 (F := Ideal) x1 (ix1 (dstOf x1 e)) := by
  rw [val_main_v39_apply, val_main_v38_apply,
    show idx_main_v38 (idx_main_v39 (ix2 e j)) = ix1 e from idx1_eq _ _ rfl, v29_at]

/-! ## The aggregated rows -/

/-- The product of the features and the matrix at `(r, j)`. -/
theorem v30_at (r : Fin 100000) (j : Fin 128) :
    val_main_v30 (F := Ideal) x0 x2 (ix2 r j) = ∑ k : Fin 128, x0 (ix2 r k) * x2 (ix2 k j) := by
  rw [val_main_v30_apply]
  refine Finset.sum_congr rfl fun k _ => ?_
  rw [show lidx_main_v30 (ix2 r j) k = ix2 r k from idx2_eq _ _ _ rfl rfl,
    show ridx_main_v30 (ix2 r j) k = ix2 k j from idx2_eq _ _ _ rfl rfl]

/-- The product row looked up at an edge's source. -/
theorem v37_at (e : Fin 700000) (j : Fin 128) :
    val_main_v37 (F := Ideal) x0 x1 x2 (ix2 e j) = val_main_v30 (F := Ideal) x0 x2 (ix2 (srcOf x1 e) j) := by
  unfold val_main_v37 srcOf
  rw [gatherRows_rec]
  exact gather_rows_apply _ _ _ _ e j

/-- The edge's weighted row. -/
theorem v40_at (e : Fin 700000) (j : Fin 128) :
    val_main_v40 (F := Ideal) x0 x1 x2 (ix2 e j)
      = (∑ k : Fin 128, x0 (ix2 (srcOf x1 e) k) * x2 (ix2 k j))
        * (val_main_v14 (F := Ideal) x1 (ix1 (srcOf x1 e)) * val_main_v14 (F := Ideal) x1 (ix1 (dstOf x1 e))) := by
  rw [val_main_v40_apply, v37_at, v30_at, v39_at]
  rfl

/-- The accumulation starts from zero. -/
theorem v41_at (i : S100000x128.Idx) : val_main_v41 (F := Ideal) i = 0 := by
  rw [val_main_v41_apply, val_main_cst_8_apply]
  exact Ideal.ofBits_zero_f32

/-- The pre-activation the reference aggregates. -/
abbrev pre : Fin 100000 → Fin 128 → EReal :=
  Cert.Gcn.preR x0 x2 (val_main_v14 (F := Ideal) x1) (srcOf x1) (dstOf x1) (val_main_v42 (F := Ideal) x1)

/-- The accumulated rows are the pre-activation. -/
theorem v43_at (r : Fin 100000) (j : Fin 128) :
    val_main_v43 (F := Ideal) x0 x1 x2 (ix2 r j) = pre x0 x1 x2 r j := by
  unfold val_main_v43
  rw [scatterRows_rec]
  refine (host_scatterAdd_rows_apply _ (val_main_v42 (F := Ideal) x1) (val_main_v41 (F := Ideal))
    (val_main_v40 (F := Ideal) x0 x1 x2) r j).trans ?_
  rw [v41_at, zero_add]
  unfold pre Cert.Gcn.preR
  refine Finset.sum_congr rfl fun e _ => ?_
  rw [v40_at]

/-! ## Bias, positive part, residual -/

/-- A feature vector repeated along the rows, read at `(r, j)`. -/
theorem v45_at (r : Fin 100000) (j : Fin 128) : val_main_v45 (F := Ideal) x3 (ix2 r j) = x3 (ix1 j) := by
  rw [val_main_v45_apply, val_main_v44_apply]
  exact congrArg x3 (idx1_eq _ _ rfl)
theorem v68_at (r : Fin 100000) (j : Fin 128) : val_main_v68 (F := Ideal) x4 (ix2 r j) = x4 (ix1 j) := by
  rw [val_main_v68_apply, val_main_v67_apply]
  exact congrArg x4 (idx1_eq _ _ rfl)
theorem v71_at (r : Fin 100000) (j : Fin 128) : val_main_v71 (F := Ideal) x5 (ix2 r j) = x5 (ix1 j) := by
  rw [val_main_v71_apply, val_main_v70_apply]
  exact congrArg x5 (idx1_eq _ _ rfl)

/-- The positive part is taken against zero. -/
theorem call1_v0_at (i : S100000x128.Idx) : val_main_call1_v0 (F := Ideal) i = 0 := by
  rw [val_main_call1_v0_apply, val_main_call1_cst_apply]
  exact Ideal.ofBits_zero_f32

/-- The row of node `r` that is normalised. -/
abbrev yrow (r : Fin 100000) : Fin 128 → EReal :=
  Cert.Gcn.actRow (pre x0 x1 x2 r) (fun j => x3 (ix1 j)) (fun j => x0 (ix2 r j))

theorem v48_at (r : Fin 100000) (j : Fin 128) :
    val_main_v48 (F := Ideal) x0 x1 x2 x3 (ix2 r j) = yrow x0 x1 x2 x3 r j := by
  rw [val_main_v48_apply, val_main_v47_apply, val_main_v46_apply, v43_at, v45_at, call1_v0_at]
  rfl

/-! ## The row normalisation -/

/-- The row's mean. -/
theorem v52_at (r : Fin 100000) :
    val_main_v52 (F := Ideal) x0 x1 x2 x3 (ix2 r 0) = Cert.Gcn.rowMean (yrow x0 x1 x2 x3 r) := by
  rw [val_main_v52_apply, val_main_v50_apply, val_main_v49_apply, val_main_v51_apply, val_main_cst_9_apply,
    val_main_cst_10_apply]
  show Ideal.div (Ideal.ofBits .f32 0x00000000#32 + _) Cert.Gcn.c128 = _
  rw [Ideal.ofBits_zero_f32, zero_add]
  unfold Cert.Gcn.rowMean
  refine congrArg (fun s => Ideal.div s Cert.Gcn.c128) (Finset.sum_congr rfl fun k _ => ?_)
  rw [show idx_main_v49 (idx_main_v50 (ix2 r 0)) k = ix2 r k from idx2_eq _ _ _ rfl rfl, v48_at]

theorem v53_at (r : Fin 100000) (q : Fin 128) :
    val_main_v53 (F := Ideal) x0 x1 x2 x3 (ix2 r q) = Cert.Gcn.rowMean (yrow x0 x1 x2 x3 r) := by
  rw [val_main_v53_apply, show idx_main_v53 (ix2 r q) = ix2 r 0 from idx2_eq _ _ _ rfl rfl, v52_at]

theorem v60_at (r : Fin 100000) (q : Fin 128) :
    val_main_v60 (F := Ideal) x0 x1 x2 x3 (ix2 r q) = Cert.Gcn.rowMean (yrow x0 x1 x2 x3 r) := by
  rw [val_main_v60_apply, show idx_main_v60 (ix2 r q) = ix2 r 0 from idx2_eq _ _ _ rfl rfl, v52_at]

/-- The deviation from the mean. -/
theorem v54_at (r : Fin 100000) (q : Fin 128) :
    val_main_v54 (F := Ideal) x0 x1 x2 x3 (ix2 r q)
      = yrow x0 x1 x2 x3 r q - Cert.Gcn.rowMean (yrow x0 x1 x2 x3 r) := by
  rw [val_main_v54_apply, v48_at, v53_at]
  rfl

/-- The deviation, computed a second time for the output. -/
theorem v61_at (r : Fin 100000) (q : Fin 128) :
    val_main_v61 (F := Ideal) x0 x1 x2 x3 (ix2 r q)
      = yrow x0 x1 x2 x3 r q - Cert.Gcn.rowMean (yrow x0 x1 x2 x3 r) := by
  rw [val_main_v61_apply, v48_at, v60_at]
  rfl

/-- The squared deviation. -/
theorem v55_at (r : Fin 100000) (q : Fin 128) :
    val_main_v55 (F := Ideal) x0 x1 x2 x3 (ix2 r q)
      = (yrow x0 x1 x2 x3 r q - Cert.Gcn.rowMean (yrow x0 x1 x2 x3 r))
        * (yrow x0 x1 x2 x3 r q - Cert.Gcn.rowMean (yrow x0 x1 x2 x3 r)) := by
  rw [val_main_v55_apply, v54_at]
  rfl

/-- The row's variance. -/
theorem v59_at (r : Fin 100000) :
    val_main_v59 (F := Ideal) x0 x1 x2 x3 (ix2 r 0) = Cert.Gcn.rowVar (yrow x0 x1 x2 x3 r) := by
  rw [val_main_v59_apply, val_main_v57_apply, val_main_v56_apply, val_main_v58_apply, val_main_cst_11_apply,
    val_main_cst_12_apply]
  show Ideal.div (Ideal.ofBits .f32 0x00000000#32 + _) Cert.Gcn.c128 = _
  rw [Ideal.ofBits_zero_f32, zero_add]
  unfold Cert.Gcn.rowVar
  refine congrArg (fun s => Ideal.div s Cert.Gcn.c128) (Finset.sum_congr rfl fun k _ => ?_)
  rw [show idx_main_v56 (idx_main_v57 (ix2 r 0)) k = ix2 r k from idx2_eq _ _ _ rfl rfl, v55_at]

/-- The inverse square root of the shifted variance. -/
theorem v64_at (r : Fin 100000) :
    val_main_v64 (F := Ideal) x0 x1 x2 x3 (ix2 r 0)
      = Ideal.rsqrt (Cert.Gcn.rowVar (yrow x0 x1 x2 x3 r) + Cert.Gcn.ceps) := by
  rw [val_main_v64_apply, val_main_v63_apply, v59_at, val_main_v62_apply, val_main_cst_13_apply]
  rfl

theorem v65_at (r : Fin 100000) (q : Fin 128) :
    val_main_v65 (F := Ideal) x0 x1 x2 x3 (ix2 r q)
      = Ideal.rsqrt (Cert.Gcn.rowVar (yrow x0 x1 x2 x3 r) + Cert.Gcn.ceps) := by
  rw [val_main_v65_apply, show idx_main_v65 (ix2 r q) = ix2 r 0 from idx2_eq _ _ _ rfl rfl, v64_at]

/-- The output at `(r, q)`: entry `q` of the normalised row, scaled and shifted. -/
theorem v72_at (r : Fin 100000) (q : Fin 128) :
    val_main_v72 (F := Ideal) x0 x1 x2 x3 x4 x5 (ix2 r q)
      = Cert.Gcn.lnRow (yrow x0 x1 x2 x3 r) (fun j => x4 (ix1 j)) (fun j => x5 (ix1 j)) q := by
  rw [val_main_v72_apply, val_main_v69_apply, val_main_v66_apply, v61_at, v65_at, v68_at, v71_at]
  rfl

/-- THE REFERENCE'S RESULT: the layer's output from the pre-activation in the reference's arrangement. -/
theorem ref_result :
    val_main_v72 (F := Ideal) x0 x1 x2 x3 x4 x5
      = Cert.Gcn.layerOut (Cert.Gcn.preR x0 x2 (val_main_v14 (F := Ideal) x1) (srcOf x1) (dstOf x1)
          (val_main_v42 (F := Ideal) x1)) x0 x3 x4 x5 := by
  funext i
  obtain ⟨r, q, rfl⟩ : ∃ (r : Fin 100000) (q : Fin 128), i = ix2 r q := ⟨i 0, i 1, eq_ix2 i⟩
  rw [Cert.Gcn.layerOut_ix2, v72_at]

/-! ## The integer side -/

/-- An edge whose destination number is the node `r` is looked up at row `r`: a number in the node range is not negative,
    so it is not wrapped, and it is below the number of nodes, so it is not clamped. -/
theorem dst_lands (e : Fin 700000) (r : Fin 100000)
    (h : ((val_main_v42 (F := Ideal) x1) (ix2 e 0)).toInt = (r.val : ℤ)) : dstOf x1 e = r := by
  rw [val_main_v42_apply, show idx_main_v42 (ix2 e (0 : Fin 1)) = ix1 e from idx1_eq _ _ rfl] at h
  have hw : val_main_v27 (F := Ideal) x1 (ix2 e 0) = val_main_v6 (F := Ideal) x1 (ix1 e) := by
    rw [val_main_v27_apply, show idx_main_v27 (ix2 e (0 : Fin 1)) = ix1 e from idx1_eq _ _ rfl, val_main_v26_apply,
      val_main_v23_apply, val_main_v22_apply, val_main_c_4_apply]
    generalize val_main_v6 (F := Ideal) x1 (ix1 e) = d at h ⊢
    have hlt : d.slt 0#32 = false := by
      unfold BitVec.slt
      rw [decide_eq_false_iff_not, BitVec.toInt_zero]
      omega
    have hs : IntOp.cmpi .slt d 0#32 = 0#1 := by
      show BitVec.ofBool (d.slt 0#32) = 0#1
      rw [hlt]; rfl
    rw [hs, select_zero]
  refine Fin.ext ?_
  show min ((val_main_v27 (F := Ideal) x1 (ix2 e 0)).toInt.toNat) (100000 - 1) = r.val
  rw [hw, h]
  have := r.isLt
  omega

/-- Every weight is a real number: the inverse square root of a positive degree, or zero. -/
theorem dinv_real (i : S100000.Idx) : ∃ d : ℝ, val_main_v14 (F := Ideal) x1 i = ((d : ℝ) : EReal) := by
  rw [val_main_v14_apply, val_main_v12_apply, val_main_v13_apply, val_main_call0_v1_apply, val_main_call0_v0_apply,
    val_main_cst_2_apply, val_main_v11_apply, val_main_cst_1_apply]
  generalize val_main_v10 (F := Ideal) x1 i = deg
  show ∃ d : ℝ, Scalar.select (Ideal.cmp .ogt deg (Ideal.ofBits .f32 0x00000000#32)) (Ideal.rsqrt deg)
    (Ideal.ofBits .f32 0x00000000#32) = ((d : ℝ) : EReal)
  rw [Ideal.ofBits_zero_f32]
  by_cases hpos : (0 : EReal) < deg
  · have hc : Ideal.cmp .ogt deg 0 = 1#1 := by
      show BitVec.ofBool (decide ((0 : EReal) < deg)) = 1#1
      rw [decide_eq_true hpos]; rfl
    rw [hc, select_one]
    induction deg using EReal.rec with
    | bot => exact absurd hpos (by simp)
    | top => exact ⟨0, by rw [Ideal.rsqrt_top]; rfl⟩
    | coe t =>
      have ht : 0 < t := by exact_mod_cast hpos
      refine ⟨(Real.sqrt t)⁻¹, ?_⟩
      rw [Ideal.rsqrt_coe, if_neg (not_lt.mpr ht.le), if_neg ht.ne']
  · have hc : Ideal.cmp .ogt deg 0 = 0#1 := by
      show BitVec.ofBool (decide ((0 : EReal) < deg)) = 0#1
      rw [decide_eq_false hpos]; rfl
    rw [hc, select_zero]
    exact ⟨0, rfl⟩

end Cert.Gcn.Ref

end
-- ==== Proof.lean ====
/-
  A graph-convolution layer with symmetric normalisation, ReLU, a residual connection and a row-wise layer normalisation:
  the kernel and its reference compute the same array over the extended reals.

  Both programs derive from the edge-index argument the same lists of source and destination numbers (the given edges and
  one self loop per node) and the same weight `dinv` per node.  The kernel's program scales the feature rows by the source
  weights, sums the rows of the edges landing at each node, scales by the node's own weight (all on the host) and only then,
  inside the kernel, multiplies by the 128 x 128 matrix; the reference multiplies every row by the matrix first and weights
  each edge's row by both factors before the sum.  For finite features and matrix entries the two aggregations agree entry
  by entry (the matrix product distributes over the finite sums; an edge that lands at a node carries that node's weight
  as its destination factor), and everything after the aggregation — bias, positive part, residual, and the normalisation
  of each row of 128 numbers — is the same function of it in both programs (`Cert.Gcn.layerOut`).

  The kernel's output array is read off its run block by block (20 blocks of 5000 rows), the reference's off its run one
  operation at a time; the precondition supplies that the features and the matrix entries are real numbers.
-/
import proofs.«122670_j75290776699105_2_alg».proof.Defs
import proofs.«122670_j75290776699105_2_alg».proof.Proof.Gen.Kernel
import proofs.«122670_j75290776699105_2_alg».proof.Proof.Gen.Kernel.Skeleton
import proofs.«122670_j75290776699105_2_alg».proof.Proof.Gen.Kernel.Launch
import proofs.«122670_j75290776699105_2_alg».proof.Proof.Gen.Kernel.Points
import proofs.«122670_j75290776699105_2_alg».proof.Proof.Gen.Kernel.Frame
import proofs.«122670_j75290776699105_2_alg».proof.Proof.Gen.KernelIdeal
import proofs.«122670_j75290776699105_2_alg».proof.Proof.Gen.KernelIdeal.Skeleton
import proofs.«122670_j75290776699105_2_alg».proof.Proof.Gen.KernelIdeal.Launch
import proofs.«122670_j75290776699105_2_alg».proof.Proof.Gen.KernelIdeal.Points
import proofs.«122670_j75290776699105_2_alg».proof.Proof.Gen.KernelIdeal.Frame
import proofs.«122670_j75290776699105_2_alg».proof.Proof.Gen.ReferenceIdeal
import proofs.«122670_j75290776699105_2_alg».proof.Proof.Gen.Pre_finite_inputs
import proofs.«122670_j75290776699105_2_alg».proof.Proof.Gen.KernelIdeal.Value
import proofs.«122670_j75290776699105_2_alg».proof.Proof.RefRun
import proofs.«122670_j75290776699105_2_alg».proof.Proof.RefRead
import proofs.«122670_j75290776699105_2_alg».proof.Proof.Spec
import proofs.«122670_j75290776699105_2_alg».proof.Proof.Interchange
import proofs.«122670_j75290776699105_2_alg».proof.Proof.Finite
import proofs.«122670_j75290776699105_2_alg».proof.Proof.KernelHost
import proofs.«122670_j75290776699105_2_alg».proof.Proof.KernelFinal
import proofs.«122670_j75290776699105_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs: its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- THE TWO AGGREGATIONS AGREE under the precondition: entry `(r, j)` of the kernel's matrix product of the aggregated array
    is entry `(r, j)` of the reference's sum of weighted products. -/
theorem aggregation_eq (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 100000) (j : Fin 128) :
    ∑ k : Fin 128, @HMul.hMul EReal EReal EReal instHMul (Cert.KernelIdeal.Gen.V m c Cert.KernelIdeal.main_v32 (ix2 r k))
        (m ((c : Thread Cert.KernelIdeal.nD Cert.KernelIdeal.τ).loc Cert.KernelIdeal.main_arg2) (ix2 k j))
      = Cert.Gcn.preR (m ((c : Thread Cert.KernelIdeal.nD Cert.KernelIdeal.τ).loc Cert.KernelIdeal.main_arg0))
          (m ((c : Thread Cert.KernelIdeal.nD Cert.KernelIdeal.τ).loc Cert.KernelIdeal.main_arg2))
          (Cert.ReferenceIdeal.ReadP.val_main_v14 (F := Ideal) (m ((c : Thread Cert.KernelIdeal.nD Cert.KernelIdeal.τ).loc Cert.KernelIdeal.main_arg1)))
          (Cert.Gcn.Ref.srcOf (m ((c : Thread Cert.KernelIdeal.nD Cert.KernelIdeal.τ).loc Cert.KernelIdeal.main_arg1)))
          (Cert.Gcn.Ref.dstOf (m ((c : Thread Cert.KernelIdeal.nD Cert.KernelIdeal.τ).loc Cert.KernelIdeal.main_arg1)))
          (Cert.ReferenceIdeal.ReadP.val_main_v42 (F := Ideal) (m ((c : Thread Cert.KernelIdeal.nD Cert.KernelIdeal.τ).loc Cert.KernelIdeal.main_arg1)))
          r j := by
  obtain ⟨hx, hW⟩ := Cert.Gcn.features_matrix_real _ _ _ _ _ _ (hpre c)
  have hK : ∀ k : Fin 128, (Cert.KernelIdeal.Gen.V m c Cert.KernelIdeal.main_v32 (ix2 r k) : EReal)
      = Cert.Gcn.aggAt (m ((c : Thread Cert.KernelIdeal.nD Cert.KernelIdeal.τ).loc Cert.KernelIdeal.main_arg0))
          (Cert.Gcn.KernelHost.dinv (F := Ideal) (m ((c : Thread Cert.KernelIdeal.nD Cert.KernelIdeal.τ).loc Cert.KernelIdeal.main_arg1)))
          (Cert.Gcn.KernelHost.srcNode (m ((c : Thread Cert.KernelIdeal.nD Cert.KernelIdeal.τ).loc Cert.KernelIdeal.main_arg1)))
          (Cert.Gcn.KernelHost.dstIdx (F := Ideal) (m ((c : Thread Cert.KernelIdeal.nD Cert.KernelIdeal.τ).loc Cert.KernelIdeal.main_arg1))) r k := fun k =>
    (congrFun (Cert.Gcn.KernelHost.V_agg (F := Ideal) m c) (ix2 r k)).trans (Cert.Gcn.KernelHost.aggArr_apply _ _ r k)
  refine (Finset.sum_congr rfl fun k _ => by rw [hK k]).trans ?_
  exact Cert.Gcn.preK_eq_preR _ _ _ _ _ _ hx hW
    (fun i => Cert.Gcn.Ref.dinv_real _ i)
    (fun e r' h => Cert.Gcn.Ref.dst_lands _ e r' h) r j

/-- At the extended reals both programs, run from memories that agree on the arguments, end with the layer's output of the
    reference's aggregation of those arguments. -/
theorem algebraic : Cert.algebraic_KernelIdeal_ReferenceIdeal := by
  intro m ρ m' ρ' hpre hagree
  refine ⟨fun c => Cert.Gcn.layerOut
      (Cert.Gcn.preR (m ((c : Thread Cert.KernelIdeal.nD Cert.KernelIdeal.τ).loc Cert.KernelIdeal.main_arg0))
        (m ((c : Thread Cert.KernelIdeal.nD Cert.KernelIdeal.τ).loc Cert.KernelIdeal.main_arg2))
        (Cert.ReferenceIdeal.ReadP.val_main_v14 (F := Ideal) (m ((c : Thread Cert.KernelIdeal.nD Cert.KernelIdeal.τ).loc Cert.KernelIdeal.main_arg1)))
        (Cert.Gcn.Ref.srcOf (m ((c : Thread Cert.KernelIdeal.nD Cert.KernelIdeal.τ).loc Cert.KernelIdeal.main_arg1)))
        (Cert.Gcn.Ref.dstOf (m ((c : Thread Cert.KernelIdeal.nD Cert.KernelIdeal.τ).loc Cert.KernelIdeal.main_arg1)))
        (Cert.ReferenceIdeal.ReadP.val_main_v42 (F := Ideal) (m ((c : Thread Cert.KernelIdeal.nD Cert.KernelIdeal.τ).loc Cert.KernelIdeal.main_arg1))))
      (m ((c : Thread Cert.KernelIdeal.nD Cert.KernelIdeal.τ).loc Cert.KernelIdeal.main_arg0))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩)
      (Cert.Gcn.Kernel.run_layer m ρ)
    exact Cert.Gcn.layerOut_congr (fun r j => aggregation_eq m hpre c r j) _ _ _ _
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v72_eq, (hagree c).1, (hagree c).2.1, (hagree c).2.2.1, (hagree c).2.2.2.1,
      (hagree c).2.2.2.2.1, (hagree c).2.2.2.2.2]
    exact Cert.Gcn.Ref.ref_result _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
